-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S128x256 .f32) (main_arg6 : FVec F S128 .f32) (main_arg7 : FVec F S128 .f32) (main_arg8 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x800000 32) (main_arg2 : FVec F S800000 .f32) (main_arg3 : FVec F S256x128 .f32) (main_arg4 : FVec F S256 .f32) (main_arg5 : FVec F S128x256 .f32) (main_arg6 : FVec F S128 .f32) (main_arg7 : FVec F S128 .f32) (main_arg8 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S2000x128 : Shape := ⟨2, ![2000, 128]⟩
abbrev S2000x256 : Shape := ⟨2, ![2000, 256]⟩
abbrev S850000x256 : Shape := ⟨2, ![850000, 256]⟩
abbrev S1x256 : Shape := ⟨2, ![1, 256]⟩
abbrev S850000x128 : Shape := ⟨2, ![850000, 128]⟩
abbrev S1x128 : Shape := ⟨2, ![1, 128]⟩
abbrev S2000 : Shape := ⟨1, ![2000]⟩
abbrev S2000x1 : Shape := ⟨2, ![2000, 1]⟩

abbrev nBuf : Space → Nat
  | .hbm => 97
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S256x128, .f32⟩
  | .hbm, ⟨4, _⟩ => ⟨S256, .f32⟩
  | .hbm, ⟨5, _⟩ => ⟨S128x256, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S50000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S_, .f32⟩
  | .hbm, ⟨17, _⟩ => ⟨S50000, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S128x256, .f32⟩
  | .hbm, ⟨52, _⟩ => ⟨S50000x128, .bf16⟩
  | .hbm, ⟨53, _⟩ => ⟨S128x256, .bf16⟩
  | .hbm, ⟨54, _⟩ => ⟨S50000x256, .f32⟩
  | .hbm, ⟨55, _⟩ => ⟨S_, .i32⟩
  | .hbm, ⟨56, _⟩ => ⟨S850000, .i32⟩
  | .hbm, ⟨57, _⟩ => ⟨S850000, .i1⟩
  | .hbm, ⟨58, _⟩ => ⟨S_, .i32⟩
  | .hbm, ⟨59, _⟩ => ⟨S850000, .i32⟩
  | .hbm, ⟨60, _⟩ => ⟨S850000, .i32⟩
  | .hbm, ⟨61, _⟩ => ⟨S850000, .i32⟩
  | .hbm, ⟨62, _⟩ => ⟨S850000x1, .i32⟩
  | .hbm, ⟨63, _⟩ => ⟨S850000x256, .f32⟩
  | .hbm, ⟨64, _⟩ => ⟨S850000x1, .f32⟩
  | .hbm, ⟨65, _⟩ => ⟨S850000x256, .f32⟩
  | .hbm, ⟨66, _⟩ => ⟨S850000x256, .f32⟩
  | .hbm, ⟨67, _⟩ => ⟨S_, .f32⟩
  | .hbm, ⟨68, _⟩ => ⟨S50000x256, .f32⟩
  | .hbm, ⟨69, _⟩ => ⟨S850000x1, .i32⟩
  | .hbm, ⟨70, _⟩ => ⟨S50000x256, .f32⟩
  | .hbm, ⟨71, _⟩ => ⟨S1x256, .f32⟩
  | .hbm, ⟨72, _⟩ => ⟨S50000x256, .f32⟩
  | .hbm, ⟨73, _⟩ => ⟨S256x128, .f32⟩
  | .hbm, ⟨74, _⟩ => ⟨S50000x256, .bf16⟩
  | .hbm, ⟨75, _⟩ => ⟨S256x128, .bf16⟩
  | .hbm, ⟨76, _⟩ => ⟨S50000x128, .f32⟩
  | .hbm, ⟨77, _⟩ => ⟨S_, .i32⟩
  | .hbm, ⟨78, _⟩ => ⟨S850000, .i32⟩
  | .hbm, ⟨79, _⟩ => ⟨S850000, .i1⟩
  | .hbm, ⟨80, _⟩ => ⟨S_, .i32⟩
  | .hbm, ⟨81, _⟩ => ⟨S850000, .i32⟩
  | .hbm, ⟨82, _⟩ => ⟨S850000, .i32⟩
  | .hbm, ⟨83, _⟩ => ⟨S850000, .i32⟩
  | .hbm, ⟨84, _⟩ => ⟨S850000x1, .i32⟩
  | .hbm, ⟨85, _⟩ => ⟨S850000x128, .f32⟩
  | .hbm, ⟨86, _⟩ => ⟨S850000x1, .f32⟩
  | .hbm, ⟨87, _⟩ => ⟨S850000x128, .f32⟩
  | .hbm, ⟨88, _⟩ => ⟨S850000x128, .f32⟩
  | .hbm, ⟨89, _⟩ => ⟨S_, .f32⟩
  | .hbm, ⟨90, _⟩ => ⟨S50000x128, .f32⟩
  | .hbm, ⟨91, _⟩ => ⟨S850000x1, .i32⟩
  | .hbm, ⟨92, _⟩ => ⟨S50000x128, .f32⟩
  | .hbm, ⟨93, _⟩ => ⟨S1x128, .f32⟩
  | .hbm, ⟨94, _⟩ => ⟨S1x128, .f32⟩
  | .hbm, ⟨95, _⟩ => ⟨S1x128, .f32⟩
  | .hbm, ⟨96, _⟩ => ⟨S50000x128, .f32⟩
  | .local _ .vmem, ⟨0, _⟩ => ⟨S2000x128, .bf16⟩
  | .local _ .vmem, ⟨1, _⟩ => ⟨S2000x128, .bf16⟩
  | .local _ .vmem, ⟨2, _⟩ => ⟨S128x256, .bf16⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S1x256, .f32⟩
  | .local _ .vmem, ⟨8, _⟩ => ⟨S2000x256, .f32⟩
  | .local _ .vmem, ⟨9, _⟩ => ⟨S2000x256, .f32⟩
  | .local _ .vmem, ⟨10, _⟩ => ⟨S2000x256, .bf16⟩
  | .local _ .vmem, ⟨11, _⟩ => ⟨S2000x256, .bf16⟩
  | .local _ .vmem, ⟨12, _⟩ => ⟨S256x128, .bf16⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S2000x128, .f32⟩
  | .local _ .vmem, ⟨21, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_6 : Ref sig .tc := ⟨.hbm, 55, rfl⟩
abbrev main_v36 : Ref sig .tc := ⟨.hbm, 56, rfl⟩
abbrev main_v37 : Ref sig .tc := ⟨.hbm, 57, rfl⟩
abbrev main_c_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_8 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_9 : Ref sig .tc := ⟨.hbm, 77, rfl⟩
abbrev main_v55 : Ref sig .tc := ⟨.hbm, 78, rfl⟩
abbrev main_v56 : Ref sig .tc := ⟨.hbm, 79, rfl⟩
abbrev main_c_10 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_11 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc3_stg4_0 : Ref sig .tc := ⟨.vmem, 20, rfl⟩
abbrev cc3_stg4_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem3_0 : DmaSem sig := 19
abbrev cc3_sem4_0 : DmaSem sig := 20
abbrev cc3_sem4_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  transposes_S256x128_S128x256_1_0 : S256x128.Transposes [1, 0] S128x256
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S2000x256_S2000x256_0_0 : ∀ a, (![0, 0] : Fin 2 → Nat) a + S2000x256.size a ≤ S2000x256.size a
  h_S2000x256 : 0 < S2000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  transposes_S128x256_S256x128_1_0 : S128x256.Transposes [1, 0] S256x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x256_S2000x256_1_0_0_1_n_n_wf : DotDims.WF S2000x128 S128x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x128_S2000x128_1_0_0_1_n_n_wf : DotDims.WF S2000x256 S256x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .bf16 = 32 ∨ (Rect.block (s := S50000x128) S2000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .bf16 = 32 ∨ (Rect.block (s := S50000x256) S2000x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .bf16 = 32 ∨ (Rect.block (s := S256x128) S256x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S50000x128.size a
  hwx3_4 : ∀ i : grid3.Coords, EltTy.bits .f32 = 32 ∨ (Rect.block (s := S50000x128) S2000x128.size (cc3_transform_4 i) (hinb3_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_v33) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v52) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v67) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v68) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v69) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v70) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v71) S2000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S850000x128 : Shape := ⟨2, ![850000, 128]⟩
abbrev S1x128 : Shape := ⟨2, ![1, 128]⟩
abbrev S50000x1 : Shape := ⟨2, ![50000, 1]⟩

abbrev nBuf : Space → Nat
  | .hbm => 125
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S256x128, .f32⟩
  | .hbm, ⟨4, _⟩ => ⟨S256, .f32⟩
  | .hbm, ⟨5, _⟩ => ⟨S128x256, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S50000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S_, .f32⟩
  | .hbm, ⟨17, _⟩ => ⟨S50000, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S128x256, .f32⟩
  | .hbm, ⟨52, _⟩ => ⟨S50000x256, .f32⟩
  | .hbm, ⟨53, _⟩ => ⟨S_, .i32⟩
  | .hbm, ⟨54, _⟩ => ⟨S850000, .i32⟩
  | .hbm, ⟨55, _⟩ => ⟨S850000, .i1⟩
  | .hbm, ⟨56, _⟩ => ⟨S_, .i32⟩
  | .hbm, ⟨57, _⟩ => ⟨S850000, .i32⟩
  | .hbm, ⟨58, _⟩ => ⟨S850000, .i32⟩
  | .hbm, ⟨59, _⟩ => ⟨S850000, .i32⟩
  | .hbm, ⟨60, _⟩ => ⟨S850000x1, .i32⟩
  | .hbm, ⟨61, _⟩ => ⟨S850000x256, .f32⟩
  | .hbm, ⟨62, _⟩ => ⟨S850000x1, .f32⟩
  | .hbm, ⟨63, _⟩ => ⟨S850000x256, .f32⟩
  | .hbm, ⟨64, _⟩ => ⟨S850000x256, .f32⟩
  | .hbm, ⟨65, _⟩ => ⟨S_, .f32⟩
  | .hbm, ⟨66, _⟩ => ⟨S50000x256, .f32⟩
  | .hbm, ⟨67, _⟩ => ⟨S850000x1, .i32⟩
  | .hbm, ⟨68, _⟩ => ⟨S50000x256, .f32⟩
  | .hbm, ⟨69, _⟩ => ⟨S1x256, .f32⟩
  | .hbm, ⟨70, _⟩ => ⟨S50000x256, .f32⟩
  | .hbm, ⟨71, _⟩ => ⟨S50000x256, .f32⟩
  | .hbm, ⟨72, _⟩ => ⟨S_, .f32⟩
  | .hbm, ⟨73, _⟩ => ⟨S50000x256, .f32⟩
  | .hbm, ⟨74, _⟩ => ⟨S50000x256, .f32⟩
  | .hbm, ⟨75, _⟩ => ⟨S256x128, .f32⟩
  | .hbm, ⟨76, _⟩ => ⟨S50000x128, .f32⟩
  | .hbm, ⟨77, _⟩ => ⟨S_, .i32⟩
  | .hbm, ⟨78, _⟩ => ⟨S850000, .i32⟩
  | .hbm, ⟨79, _⟩ => ⟨S850000, .i1⟩
  | .hbm, ⟨80, _⟩ => ⟨S_, .i32⟩
  | .hbm, ⟨81, _⟩ => ⟨S850000, .i32⟩
  | .hbm, ⟨82, _⟩ => ⟨S850000, .i32⟩
  | .hbm, ⟨83, _⟩ => ⟨S850000, .i32⟩
  | .hbm, ⟨84, _⟩ => ⟨S850000x1, .i32⟩
  | .hbm, ⟨85, _⟩ => ⟨S850000x128, .f32⟩
  | .hbm, ⟨86, _⟩ => ⟨S850000x1, .f32⟩
  | .hbm, ⟨87, _⟩ => ⟨S850000x128, .f32⟩
  | .hbm, ⟨88, _⟩ => ⟨S850000x128, .f32⟩
  | .hbm, ⟨89, _⟩ => ⟨S_, .f32⟩
  | .hbm, ⟨90, _⟩ => ⟨S50000x128, .f32⟩
  | .hbm, ⟨91, _⟩ => ⟨S850000x1, .i32⟩
  | .hbm, ⟨92, _⟩ => ⟨S50000x128, .f32⟩
  | .hbm, ⟨93, _⟩ => ⟨S1x128, .f32⟩
  | .hbm, ⟨94, _⟩ => ⟨S50000x128, .f32⟩
  | .hbm, ⟨95, _⟩ => ⟨S50000x128, .f32⟩
  | .hbm, ⟨96, _⟩ => ⟨S_, .f32⟩
  | .hbm, ⟨97, _⟩ => ⟨S50000, .f32⟩
  | .hbm, ⟨98, _⟩ => ⟨S50000x1, .f32⟩
  | .hbm, ⟨99, _⟩ => ⟨S_, .f32⟩
  | .hbm, ⟨100, _⟩ => ⟨S50000x1, .f32⟩
  | .hbm, ⟨101, _⟩ => ⟨S50000x1, .f32⟩
  | .hbm, ⟨102, _⟩ => ⟨S50000x128, .f32⟩
  | .hbm, ⟨103, _⟩ => ⟨S50000x128, .f32⟩
  | .hbm, ⟨104, _⟩ => ⟨S50000x128, .f32⟩
  | .hbm, ⟨105, _⟩ => ⟨S_, .f32⟩
  | .hbm, ⟨106, _⟩ => ⟨S50000, .f32⟩
  | .hbm, ⟨107, _⟩ => ⟨S50000x1, .f32⟩
  | .hbm, ⟨108, _⟩ => ⟨S_, .f32⟩
  | .hbm, ⟨109, _⟩ => ⟨S50000x1, .f32⟩
  | .hbm, ⟨110, _⟩ => ⟨S50000x1, .f32⟩
  | .hbm, ⟨111, _⟩ => ⟨S50000x128, .f32⟩
  | .hbm, ⟨112, _⟩ => ⟨S50000x128, .f32⟩
  | .hbm, ⟨113, _⟩ => ⟨S_, .f32⟩
  | .hbm, ⟨114, _⟩ => ⟨S50000x1, .f32⟩
  | .hbm, ⟨115, _⟩ => ⟨S50000x1, .f32⟩
  | .hbm, ⟨116, _⟩ => ⟨S50000x1, .f32⟩
  | .hbm, ⟨117, _⟩ => ⟨S50000x128, .f32⟩
  | .hbm, ⟨118, _⟩ => ⟨S50000x128, .f32⟩
  | .hbm, ⟨119, _⟩ => ⟨S1x128, .f32⟩
  | .hbm, ⟨120, _⟩ => ⟨S50000x128, .f32⟩
  | .hbm, ⟨121, _⟩ => ⟨S50000x128, .f32⟩
  | .hbm, ⟨122, _⟩ => ⟨S1x128, .f32⟩
  | .hbm, ⟨123, _⟩ => ⟨S50000x128, .f32⟩
  | .hbm, ⟨124, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_call1_cst : Ref sig .tc := ⟨.hbm, 72, rfl⟩
abbrev main_call1_v0 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_9 : Ref sig .tc := ⟨.hbm, 77, rfl⟩
abbrev main_v53 : Ref sig .tc := ⟨.hbm, 78, rfl⟩
abbrev main_v54 : Ref sig .tc := ⟨.hbm, 79, rfl⟩
abbrev main_c_10 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_11 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_12 : Ref sig .tc := ⟨.hbm, 96, rfl⟩
abbrev main_v69 : Ref sig .tc := ⟨.hbm, 97, rfl⟩
abbrev main_v70 : Ref sig .tc := ⟨.hbm, 98, rfl⟩
abbrev main_cst_13 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_14 : Ref sig .tc := ⟨.hbm, 105, rfl⟩
abbrev main_v76 : Ref sig .tc := ⟨.hbm, 106, rfl⟩
abbrev main_v77 : Ref sig .tc := ⟨.hbm, 107, rfl⟩
abbrev main_cst_15 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_16 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  transposes_S256x128_S128x256_1_0 : S256x128.Transposes [1, 0] S128x256
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  transposes_S128x256_S256x128_1_0 : S128x256.Transposes [1, 0] S256x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x256_S50000x256_1_0_0_1_n_n_wf : DotDims.WF S50000x128 S128x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KernelRun.lean ====
/-
  The idealized kernel's run with its result named.

  The program is four grids of row blocks among stretches of host operations.  Its frame proof follows the buffer
  contents through every boundary: after the last grid the contents are `W10`.  The same run, read at the result
  buffer as well as at the nine arguments, says that every execution ends with the result array at `W10` there and
  the arguments as launched.  What `W10` holds at the result buffer is the subject of the other modules.
-/
import proofs.«159216_j30812095381601_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the idealized kernel terminates, without a fault, with the result array at the
    last boundary's contents and the nine arguments as launched. -/
theorem result_run : θ_run defs (onTc (τ := τ) (main (F := F))) ⟨m, fun _ => 0, ρ⟩ (fun r => ∀ c : Dev nD,
      r.2.mem ((c.tc : Thread nD τ).loc main_v71) = W10 m ρ c (Proc.devRef .tc main_v71)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v71 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c)⟩)

end Cert.KernelIdeal.Result

end
-- ==== Proof.Prefix.lean ====
/-
  The contents of the idealized kernel's buffers at every boundary between a stretch of host operations and a grid,
  followed from the launch to the return.

  The kernel and the reference compute the two index vectors of the edge list with the self loops appended, the
  normalised edge weights, and each of the two gather-scale-scatter hops by the same host operations on the same
  operands; they differ only in how each dense stage is spelt: the reference multiplies by the transposed weights with
  one `dot_general`, adds the bias laid out by `broadcast_in_dim` and rectifies or normalises the whole array; the kernel
  runs a grid of row blocks for each product (on operands narrowed to bf16, which changes nothing at the ideal values),
  one for the bias and rectifier and one for the bias and layer normalisation.  So at every boundary each buffer a later
  stage reads holds the value the reference's corresponding operation writes, as a function of the nine arguments; the
  last boundary's result buffer holds the reference's result.
-/
import proofs.«159216_j30812095381601_1_alg».proof.Proof.Gen.KernelIdeal.Frame
import proofs.«159216_j30812095381601_1_alg».proof.Proof.Gen.ReferenceIdeal.Read
import Idealize.ShloMosaic.Lib.StableHlo.Run

set_option maxRecDepth 16384

noncomputable section

namespace Cert.KernelIdeal.Walk

open Cert.KernelIdeal Cert.KernelIdeal.Gen Idealize.ShloMosaic Idealize.ShloMosaic.TcCoe Idealize.SL.Sem
open Idealize.ShloMosaic.StableHlo
open Cert.ReferenceIdeal.Read

/-- The results of a stretch of host operations, rewritten operation by operation: at an operation's own result buffer
    its function of its operands, at any other buffer what was there. -/
macro "after_rw" : tactic =>
  `(tactic| (repeat (first
       | rw [nullary_result] | rw [unary_result] | rw [binary_result] | rw [ternary_result] | rw [quaternary_result]
       | rw [reshape_result]
       | (rw [nullary_result_ne]; rotate_left; decide)
       | (rw [unary_result_ne]; rotate_left; decide)
       | (rw [binary_result_ne]; rotate_left; decide)
       | (rw [ternary_result_ne]; rotate_left; decide)
       | (rw [quaternary_result_ne]; rotate_left; decide)
       | (rw [reshape_result_ne]; rotate_left; decide))))

variable (m : (ℓ : Loc nD τ sig) → Buf (Elt Ideal) ℓ) (ρ : Dev nD → PrngReg) (c : Dev nD)

/-- An argument array as launched. -/
abbrev x (b : Ref sig .tc) : Buf (Elt Ideal) ((c.tc : Thread nD τ).loc b) := m ((c.tc : Thread nD τ).loc b)

/-- Narrowing to bf16 changes nothing at the ideal values. -/
theorem truncf_id {s : Shape} {φ : FTy} (ψ : FTy) (a : FVec Ideal s φ) (h : ψ.bits < φ.bits) : truncf ψ a h = a := rfl

/-! ## Before the first grid -/

theorem w3_v33 : W3 m ρ c (Proc.devRef .tc main_v33) = truncf (F := Ideal) (s := S50000x128) (φ := .f32) .bf16 (x m c main_arg0) bitsLt_bf16_f32 := by
  show after hostOps0_2 (after hostOps0_1 (after hostOps0 (W0 m ρ c))) _ = _
  after_results_simp

theorem w3_v34 : W3 m ρ c (Proc.devRef .tc main_v34)
    = truncf (F := Ideal) (s := S128x256) (φ := .f32) .bf16 (transpose S128x256 [1, 0] (x m c main_arg3) transposes_S256x128_S128x256_1_0) bitsLt_bf16_f32 := by
  show after hostOps0_2 (after hostOps0_1 (after hostOps0 (W0 m ρ c))) _ = _
  after_results_simp

/-- The source index of every edge, the self loops appended. -/
theorem w3_v3 : W3 m ρ c (Proc.devRef .tc main_v3) = val_main_v3 (F := Ideal) (x m c main_arg1) := by
  show after hostOps0_2 (after hostOps0_1 (after hostOps0 (W0 m ρ c))) _ = _
  after_results_simp
  after_rw
  rfl

/-- The target index of every edge, the self loops appended. -/
theorem w3_v6 : W3 m ρ c (Proc.devRef .tc main_v6) = val_main_v6 (F := Ideal) (x m c main_arg1) := by
  show after hostOps0_2 (after hostOps0_1 (after hostOps0 (W0 m ρ c))) _ = _
  after_results_simp
  after_rw
  rfl

/-- The call of `where`: its result is the selection among its three operands, the scalar laid out over the nodes. -/
theorem where_v15 (V : Valuation τ sig (Elt Ideal)) :
    after hostOps0_1 V (Proc.devRef .tc main_v15)
      = select (V (Proc.devRef .tc main_v13)) (V (Proc.devRef .tc main_v14)) (broadcastInDim S50000 ![] bcast_S_S50000 (V (Proc.devRef .tc main_cst_2))) := by
  after_results_simp
  rfl

theorem w1_v13 : W1 m ρ c (Proc.devRef .tc main_v13) = val_main_v13 (F := Ideal) (x m c main_arg1) (x m c main_arg2) := by
  show after hostOps0 (W0 m ρ c) _ = _
  after_results_simp
  after_rw
  rfl

theorem w1_v14 : W1 m ρ c (Proc.devRef .tc main_v14) = val_main_v14 (F := Ideal) (x m c main_arg1) (x m c main_arg2) := by
  show after hostOps0 (W0 m ρ c) _ = _
  after_results_simp
  after_rw
  rfl

theorem w1_cst_2 : W1 m ρ c (Proc.devRef .tc main_cst_2) = val_main_cst_2 (F := Ideal) := by
  show after hostOps0 (W0 m ρ c) _ = _
  after_results_simp
  rfl

theorem w2_v15 : W2 m ρ c (Proc.devRef .tc main_v15) = val_main_v15 (F := Ideal) (x m c main_arg1) (x m c main_arg2) := by
  show after hostOps0_1 (W1 m ρ c) _ = _
  rw [where_v15, w1_v13, w1_v14, w1_cst_2]
  rfl

theorem w2_v3 : W2 m ρ c (Proc.devRef .tc main_v3) = val_main_v3 (F := Ideal) (x m c main_arg1) := by
  show after hostOps0_1 (after hostOps0 (W0 m ρ c)) _ = _
  after_results_simp
  after_rw
  rfl

theorem w2_v6 : W2 m ρ c (Proc.devRef .tc main_v6) = val_main_v6 (F := Ideal) (x m c main_arg1) := by
  show after hostOps0_1 (after hostOps0 (W0 m ρ c)) _ = _
  after_results_simp
  after_rw
  rfl

theorem w2_v8 : W2 m ρ c (Proc.devRef .tc main_v8) = val_main_v8 (F := Ideal) (x m c main_arg2) := by
  show after hostOps0_1 (after hostOps0 (W0 m ρ c)) _ = _
  after_results_simp
  after_rw
  rfl

/-- The normalised weight of every edge. -/
theorem w3_v31 : W3 m ρ c (Proc.devRef .tc main_v31) = val_main_v31 (F := Ideal) (x m c main_arg1) (x m c main_arg2) := by
  have h15 := w2_v15 m ρ c
  have h3 := w2_v3 m ρ c
  have h6 := w2_v6 m ρ c
  have h8 := w2_v8 m ρ c
  show after hostOps0_2 (W2 m ρ c) _ = _
  generalize W2 m ρ c = V2 at h15 h3 h6 h8 ⊢
  after_results_simp
  after_rw
  rw [h15, h3, h6, h8]
  rfl

theorem w3_arg4 : W3 m ρ c (Proc.devRef .tc main_arg4) = (x m c main_arg4) := by
  show after hostOps0_2 (after hostOps0_1 (after hostOps0 (W0 m ρ c))) _ = _
  after_results_simp

theorem w3_arg5 : W3 m ρ c (Proc.devRef .tc main_arg5) = (x m c main_arg5) := by
  show after hostOps0_2 (after hostOps0_1 (after hostOps0 (W0 m ρ c))) _ = _
  after_results_simp

theorem w3_arg6 : W3 m ρ c (Proc.devRef .tc main_arg6) = (x m c main_arg6) := by
  show after hostOps0_2 (after hostOps0_1 (after hostOps0 (W0 m ρ c))) _ = _
  after_results_simp

theorem w3_arg7 : W3 m ρ c (Proc.devRef .tc main_arg7) = (x m c main_arg7) := by
  show after hostOps0_2 (after hostOps0_1 (after hostOps0 (W0 m ρ c))) _ = _
  after_results_simp

theorem w3_arg8 : W3 m ρ c (Proc.devRef .tc main_arg8) = (x m c main_arg8) := by
  show after hostOps0_2 (after hostOps0_1 (after hostOps0 (W0 m ρ c))) _ = _
  after_results_simp

end Cert.KernelIdeal.Walk

end
-- ==== Proof.LibDenseRow.lean ====
/-
  A DENSE LAYER READ ROW BY ROW, at the ideal values.

  A dense layer sends a row `x` of `K` numbers to the row `j ↦ (∑ k, x k · w k j) + b j` of `N` numbers: each output row
  depends on the same row of the input and on nothing else of it.  Two spellings of it occur in printed programs and both
  are read here at an index `(p, c)` given by its coordinates:
  • on the vector unit, a matrix product into a zero accumulator plus a bias vector `[N]` cast to `[1, N]` and
    broadcast over the rows (`klayer_apply`);
  • on the host, a `dot_general` contracting the operand's columns with the weight's rows plus the bias broadcast
    first to `[1, N]` and then over the rows (`hlayer_apply`).
  Both take the facts about the contraction's dimension numbers as hypotheses (one contracted axis of extent `K`; the
  operand indices at output index `(p, c)` and contraction index `k` are `(p, k)` and `(k, c)`), which a program's
  record gives by evaluation.  Also: two arrays joined along the columns read at `(p, k)` (`concat_cols_apply`), the
  rows side by side (`cat`).  No algebra of the extended reals is used: no sum is regrouped.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.DenseRow

open Idealize.ShloMosaic Idealize.ShloMosaic.ValueIdx

/-! ## Rows -/

/-- Two rows side by side: the first `A` entries are `x`'s, the next `B` are `y`'s. -/
def cat {A B C : ℕ} (hC : C = A + B) (x : Fin A → EReal) (y : Fin B → EReal) (k : Fin C) : EReal :=
  if h : k.val < A then x ⟨k.val, h⟩ else y ⟨k.val - A, by have := k.isLt; omega⟩

/-- A dense layer on one row: `j ↦ (∑ k, x k · w k j) + b j`. -/
def layer {K N : ℕ} (x : Fin K → EReal) (w : Fin K → Fin N → EReal) (b : Fin N → EReal) (j : Fin N) : EReal :=
  (∑ k : Fin K, x k * w k j) + b j

/-- The activation on one row: the larger of each entry and the level `z` (zero, for a rectifier). -/
def act {N : ℕ} (z : EReal) (x : Fin N → EReal) (j : Fin N) : EReal := max (x j) z

/-! ## Two arrays joined along the columns -/

/-- `[R, A]` and `[R, B]` joined along axis 1, read at `(p, k)`: row `p` of the first beside row `p` of the second. -/
theorem concat_cols_apply {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) (p : Fin R) (k : Fin C) :
    concatenate ⟨2, ![R, C]⟩ (1 : Fin 2) [⟨⟨2, ![R, A]⟩, x₁⟩, ⟨⟨2, ![R, B]⟩, x₂⟩] h (ix2 p k)
      = cat hC (fun a => x₁ (ix2 p a)) (fun b => x₂ (ix2 p b)) k := by
  unfold cat
  by_cases hk : k.val < A
  · rw [dif_pos hk]
    refine concatenate_pair_apply_left (1 : Fin 2) x₁ x₂ h (ix2 p k) rfl (ix2 p ⟨k.val, hk⟩) fun b => ?_
    match b with
    | ⟨0, _⟩ => rfl
    | ⟨1, _⟩ => rfl
  · rw [dif_neg hk]
    have hkC := k.isLt
    refine concatenate_pair_apply_right (1 : Fin 2) x₁ x₂ h (ix2 p k) rfl rfl (ix2 p ⟨k.val - A, by omega⟩) (fun b hb => ?_) ?_
    · match b with
      | ⟨0, _⟩ => rfl
      | ⟨1, _⟩ => exact absurd rfl hb
    · show (k.val - A) + A = k.val
      omega

/-! ## The contraction as a sum over the contracted extent -/

/-- The sum over a one-axis contraction index, re-indexed by that axis's coordinate. -/
theorem contr_sum {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (l : FVec Ideal ⟨2, ![R, K]⟩ φ₁) (r : FVec Ideal ⟨2, ![K, N]⟩ φ₂) (p : Fin R) (c : Fin N) :
    (∑ q : d.contr.Idx, l (d.lhsIdx (ix2 p c) q) * r (d.rhsIdx (ix2 p c) q)) = ∑ k : Fin K, l (ix2 p k) * r (ix2 k c) := by
  rw [← Equiv.sum_comp (contrEquiv1 d K hr hs).symm]
  exact Finset.sum_congr rfl fun k _ => by rw [hl p c k, hrr p c k]

/-! ## The layer on the vector unit -/

/-- A matrix product into the zero accumulator plus the bias `[N]` cast to `[1, N]` and broadcast over the rows, read
    at `(p, c)`: the dense layer of row `p`. -/
theorem klayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (p : Fin R) (c : Fin N) :
    addf (matmul d prec a (shapeCast ⟨2, ![K, N]⟩ w hw) (constant ⟨2, ![R, N]⟩ .f32 0x00000000#32))
        (broadcastTo ⟨2, ![R, N]⟩ (shapeCast ⟨2, ![1, N]⟩ b hc) hb) (ix2 p c)
      = layer (fun k => a (ix2 p k)) (fun k j => w (ix2 k j)) (fun j => b (ix1 j)) c := by
  show FloatOps.matmul d prec a (shapeCast ⟨2, ![K, N]⟩ w hw) (constant ⟨2, ![R, N]⟩ .f32 0x00000000#32) (ix2 p c)
      + broadcastTo ⟨2, ![R, N]⟩ (shapeCast ⟨2, ![1, N]⟩ b hc) hb (ix2 p c) = _
  rw [Ideal.matmul_constant_zero_apply, contr_sum d hr hs hl hrr, shapeCast_self, broadcastTo_1b_ab_apply,
    shapeCast_a_1a_apply]
  rfl

/-! ## The layer on the host -/

/-- A `dot_general` contracting the operand's columns with the weight's rows plus the bias broadcast to `[1, N]` and then
    over the rows, read at `(p, c)`: the dense layer of row `p`. -/
theorem hlayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (c : Fin N) :
    addf (Host.dotGeneral d prec a w)
        (broadcastInDim ⟨2, ![R, N]⟩ ![0, 1] h2 (broadcastInDim ⟨2, ![1, N]⟩ ![1] h1 b)) (ix2 p c)
      = layer (fun k => a (ix2 p k)) (fun k j => w (ix2 k j)) (fun j => b (ix1 j)) c := by
  show Host.dotGeneral d prec a w (ix2 p c)
      + broadcastInDim ⟨2, ![R, N]⟩ ![0, 1] h2 (broadcastInDim ⟨2, ![1, N]⟩ ![1] h1 b) (ix2 p c) = _
  have e2 : broadcastInDim ⟨2, ![R, N]⟩ ![0, 1] h2 (broadcastInDim ⟨2, ![1, N]⟩ ![1] h1 b) (ix2 p c)
      = broadcastInDim ⟨2, ![1, N]⟩ ![1] h1 b (ix2 (0 : Fin 1) c) :=
    broadcastInDim_apply _ h2 _ (ix2 p c) (ix2 (0 : Fin 1) c) fun ax => by
      match ax with
      | ⟨0, _⟩ => show 0 = if (1 : ℕ) = 1 then 0 else p.val; rw [if_pos rfl]
      | ⟨1, _⟩ =>
        show c.val = if N = 1 then 0 else c.val
        split
        · have := c.isLt; omega
        · rfl
  have e1 : broadcastInDim ⟨2, ![1, N]⟩ ![1] h1 b (ix2 (0 : Fin 1) c) = b (ix1 c) :=
    broadcastInDim_apply _ h1 b (ix2 (0 : Fin 1) c) (ix1 c) fun ax => by
      match ax with
      | ⟨0, _⟩ =>
        show c.val = if N = 1 then 0 else c.val
        split
        · have := c.isLt; omega
        · rfl
  rw [e2, e1]
  simp only [Host.dotGeneral]
  rw [Ideal.dotGeneral_apply, contr_sum d hr hs hl hrr]
  rfl

/-! ## Whole arrays, row by row

The same three operations as functions of whole arrays with any number `R` of rows: a kernel's block of rows and a
reference's full array are then the SAME function at two row counts, and because each output row depends only on the same
input row, a block of the result is the function of the blocks (`layerArr_rows`, `actArr_rows`, `catArr_rows`). -/

/-- The dense layer applied to every row of `a`. -/
def layerArr {R K N : ℕ} (a : (⟨2, ![R, K]⟩ : Shape).Idx → EReal) (w : (⟨2, ![K, N]⟩ : Shape).Idx → EReal)
    (b : (⟨1, ![N]⟩ : Shape).Idx → EReal) : (⟨2, ![R, N]⟩ : Shape).Idx → EReal :=
  fun i => layer (fun k => a (ix2 (idxEquiv2 (n0 := R) (n1 := N) i).1 k)) (fun k j => w (ix2 k j)) (fun j => b (ix1 j))
    (idxEquiv2 (n0 := R) (n1 := N) i).2

/-- The activation applied to every entry. -/
def actArr {s : Shape} (z : EReal) (y : s.Idx → EReal) : s.Idx → EReal := fun i => max (y i) z

/-- Two arrays with the same rows, side by side. -/
def catArr {R A B C : ℕ} (hC : C = A + B) (x₁ : (⟨2, ![R, A]⟩ : Shape).Idx → EReal) (x₂ : (⟨2, ![R, B]⟩ : Shape).Idx → EReal) :
    (⟨2, ![R, C]⟩ : Shape).Idx → EReal :=
  fun i => cat hC (fun a => x₁ (ix2 (idxEquiv2 (n0 := R) (n1 := C) i).1 a)) (fun b => x₂ (ix2 (idxEquiv2 (n0 := R) (n1 := C) i).1 b))
    (idxEquiv2 (n0 := R) (n1 := C) i).2

theorem layerArr_apply {R K N : ℕ} (a : (⟨2, ![R, K]⟩ : Shape).Idx → EReal) (w : (⟨2, ![K, N]⟩ : Shape).Idx → EReal)
    (b : (⟨1, ![N]⟩ : Shape).Idx → EReal) (p : Fin R) (c : Fin N) :
    layerArr a w b (ix2 p c) = layer (fun k => a (ix2 p k)) (fun k j => w (ix2 k j)) (fun j => b (ix1 j)) c := rfl

theorem catArr_apply {R A B C : ℕ} (hC : C = A + B) (x₁ : (⟨2, ![R, A]⟩ : Shape).Idx → EReal) (x₂ : (⟨2, ![R, B]⟩ : Shape).Idx → EReal)
    (p : Fin R) (k : Fin C) : catArr hC x₁ x₂ (ix2 p k) = cat hC (fun a => x₁ (ix2 p a)) (fun b => x₂ (ix2 p b)) k := rfl

/-- Row `p` of the layer of `a` is row `σ p` of the layer of `A` when row `p` of `a` is row `σ p` of `A`. -/
theorem layerArr_rows {R R' K N : ℕ} (a : (⟨2, ![R, K]⟩ : Shape).Idx → EReal) (A : (⟨2, ![R', K]⟩ : Shape).Idx → EReal)
    (w : (⟨2, ![K, N]⟩ : Shape).Idx → EReal) (b : (⟨1, ![N]⟩ : Shape).Idx → EReal) (p : Fin R) (p' : Fin R')
    (h : ∀ k : Fin K, a (ix2 p k) = A (ix2 p' k)) (c : Fin N) :
    layerArr a w b (ix2 p c) = layerArr A w b (ix2 p' c) := by
  rw [layerArr_apply, layerArr_apply, show (fun k => a (ix2 p k)) = fun k => A (ix2 p' k) from funext h]

theorem actArr_rows {R R' N : ℕ} (z : EReal) (y : (⟨2, ![R, N]⟩ : Shape).Idx → EReal) (Y : (⟨2, ![R', N]⟩ : Shape).Idx → EReal)
    (p : Fin R) (p' : Fin R') (h : ∀ k : Fin N, y (ix2 p k) = Y (ix2 p' k)) (c : Fin N) :
    actArr z y (ix2 p c) = actArr z Y (ix2 p' c) := by
  show max (y (ix2 p c)) z = max (Y (ix2 p' c)) z
  rw [h c]

theorem catArr_rows {R R' A B C : ℕ} (hC : C = A + B) (x₁ : (⟨2, ![R, A]⟩ : Shape).Idx → EReal) (x₂ : (⟨2, ![R, B]⟩ : Shape).Idx → EReal)
    (X₁ : (⟨2, ![R', A]⟩ : Shape).Idx → EReal) (X₂ : (⟨2, ![R', B]⟩ : Shape).Idx → EReal) (p : Fin R) (p' : Fin R')
    (h₁ : ∀ k : Fin A, x₁ (ix2 p k) = X₁ (ix2 p' k)) (h₂ : ∀ k : Fin B, x₂ (ix2 p k) = X₂ (ix2 p' k)) (c : Fin C) :
    catArr hC x₁ x₂ (ix2 p c) = catArr hC X₁ X₂ (ix2 p' c) := by
  rw [catArr_apply, catArr_apply, show (fun a => x₁ (ix2 p a)) = fun a => X₁ (ix2 p' a) from funext h₁,
    show (fun b => x₂ (ix2 p b)) = fun b => X₂ (ix2 p' b) from funext h₂]

/-- The vector unit's layer, as a whole array. -/
theorem klayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul d prec a (shapeCast ⟨2, ![K, N]⟩ w hw) (constant ⟨2, ![R, N]⟩ .f32 0x00000000#32))
        (broadcastTo ⟨2, ![R, N]⟩ (shapeCast ⟨2, ![1, N]⟩ b hc) hb)
      = layerArr a w b := by
  funext i
  obtain ⟨p, c, rfl⟩ : ∃ (p : Fin R) (c : Fin N), i = ix2 p c := ⟨i 0, i 1, eq_ix2 i⟩
  exact klayer_apply d hr hs hl hrr prec a w hw b hc hb p c

/-- The host's layer, as a whole array. -/
theorem hlayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral d prec a w)
        (broadcastInDim ⟨2, ![R, N]⟩ ![0, 1] h2 (broadcastInDim ⟨2, ![1, N]⟩ ![1] h1 b))
      = layerArr a w b := by
  funext i
  obtain ⟨p, c, rfl⟩ : ∃ (p : Fin R) (c : Fin N), i = ix2 p c := ⟨i 0, i 1, eq_ix2 i⟩
  exact hlayer_apply d hr hs hl hrr prec a w b h1 h2 p c

/-- Two arrays joined along the columns, as a whole array. -/
theorem concatArr {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) :
    concatenate ⟨2, ![R, C]⟩ (1 : Fin 2) [⟨⟨2, ![R, A]⟩, x₁⟩, ⟨⟨2, ![R, B]⟩, x₂⟩] h = catArr hC x₁ x₂ := by
  funext i
  obtain ⟨p, c, rfl⟩ : ∃ (p : Fin R) (c : Fin C), i = ix2 p c := ⟨i 0, i 1, eq_ix2 i⟩
  exact concat_cols_apply hC x₁ x₂ h p c

end Cert.DenseRow

end
-- ==== Proof.LibPlainDot.lean ====
/-
  THE PLAIN MATRIX PRODUCT'S DIMENSION RECORD, AND THE DENSE LAYER OVER IT, at the ideal values.

  An `[R, K]` array times a `[K, N]` array contracts the first's columns with the second's rows.  Its dimension record is
  `DotDims.plain R K N`; a printed program's record with the same six lists (contract axis 1 with axis 0, keep axis 0
  and axis 1, no batch axes) is that record by unfolding.  Proved here once for every `R`, `K`, `N`:
  • there is one contracted axis, of extent `K` (`rank_contr`, `size_contr`);
  • at the output index `(p, c)` and contraction position `k` the left operand is read at `(p, k)` and the right operand
    at `(k, c)` (`lhs_at`, `rhs_at`).
  These are the four facts LibDenseRow's dense layer asks of a record, so its two spellings are restated for the plain
  record with nothing left to supply (`klayer`: matrix product into a zero accumulator plus a bias vector cast to one row
  and broadcast; `hlayer`: `dot_general` plus the bias broadcast to one row and then over the rows).  Both are
  `j ↦ (∑ k, x k · w k j) + b j` on every row.  No algebra of the extended reals is used.
-/
import proofs.«159216_j30812095381601_1_alg».proof.Proof.LibDenseRow

noncomputable section

open scoped BigOperators

namespace Cert.PlainDot

open Idealize.ShloMosaic Idealize.ShloMosaic.ValueIdx Cert.DenseRow

variable (R K N : ℕ)

/-- One axis is contracted. -/
theorem rank_contr : (DotDims.plain R K N).contr.rank = 1 := rfl

/-- Its extent is the shared extent `K`. -/
theorem size_contr : (DotDims.plain R K N).contr.size ⟨0, Nat.one_pos⟩ = K := rfl

/-- The left operand's index at output `(p, c)`, contraction position `k`: row `p`, column `k`. -/
theorem lhs_at (p : Fin R) (c : Fin N) (k : Fin K) :
    (DotDims.plain R K N).lhsIdx (ix2 p c) ((contrEquiv1 (DotDims.plain R K N) K rfl rfl).symm k) = ix2 p k := by
  have hk := contrEquiv1_symm_val (DotDims.plain R K N) K rfl rfl k
  funext a
  apply Fin.ext
  match a with
  | ⟨0, _⟩ =>
    show ((DotDims.plain R K N).lhsIdx (ix2 p c) ((contrEquiv1 (DotDims.plain R K N) K rfl rfl).symm k) 0).val = p.val
    unfold DotDims.lhsIdx
    rw [dif_neg (show ¬ (0 : Fin 2) ∈ (DotDims.plain R K N).lhsBatch from List.not_mem_nil),
      dif_pos (show (0 : Fin 2) ∈ (DotDims.plain R K N).lhsNonContracting from List.mem_singleton.mpr rfl)]
    rfl
  | ⟨1, _⟩ => exact ((DotDims.plain R K N).lhsIdx_val_of_single rfl (ix2 p c) _).trans hk

/-- The right operand's index at output `(p, c)`, contraction position `k`: row `k`, column `c`. -/
theorem rhs_at (p : Fin R) (c : Fin N) (k : Fin K) :
    (DotDims.plain R K N).rhsIdx (ix2 p c) ((contrEquiv1 (DotDims.plain R K N) K rfl rfl).symm k) = ix2 k c := by
  have hk := contrEquiv1_symm_val (DotDims.plain R K N) K rfl rfl k
  funext a
  apply Fin.ext
  match a with
  | ⟨0, _⟩ => exact ((DotDims.plain R K N).rhsIdx_val_of_single rfl (ix2 p c) _).trans hk
  | ⟨1, _⟩ =>
    show ((DotDims.plain R K N).rhsIdx (ix2 p c) ((contrEquiv1 (DotDims.plain R K N) K rfl rfl).symm k) 1).val = c.val
    unfold DotDims.rhsIdx
    rw [dif_neg (show ¬ (1 : Fin 2) ∈ (DotDims.plain R K N).rhsBatch from List.not_mem_nil),
      dif_pos (show (1 : Fin 2) ∈ (DotDims.plain R K N).rhsNonContracting from List.mem_singleton.mpr rfl)]
    rfl

/-- The vector unit's dense layer over the plain record, as a whole array. -/
theorem klayer {φ₁ φ₂ : FTy} (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul (DotDims.plain R K N) prec a (shapeCast ⟨2, ![K, N]⟩ w hw) (constant ⟨2, ![R, N]⟩ .f32 0x00000000#32))
        (broadcastTo ⟨2, ![R, N]⟩ (shapeCast ⟨2, ![1, N]⟩ b hc) hb)
      = layerArr a w b :=
  klayerArr (DotDims.plain R K N) rfl rfl (lhs_at R K N) (rhs_at R K N) prec a w hw b hc hb

/-- The host's dense layer over the plain record, as a whole array. -/
theorem hlayer {φ₁ φ₂ : FTy} (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral (DotDims.plain R K N) prec a w)
        (broadcastInDim ⟨2, ![R, N]⟩ ![0, 1] h2 (broadcastInDim ⟨2, ![1, N]⟩ ![1] h1 b))
      = layerArr a w b :=
  hlayerArr (DotDims.plain R K N) rfl rfl (lhs_at R K N) (rhs_at R K N) prec a w b h1 h2

end Cert.PlainDot

end
-- ==== Proof.LibBlockDot.lean ====
/-
  A BLOCK OF ROWS OF A MATRIX PRODUCT, at the ideal values.

  The product of an `[R, K]` array `a` and a `[K, N]` array `w` has at `(p, c)` the entry `∑ k, a (p, k) · w (k, c)`:
  row `p` of the result depends on row `p` of `a` and on nothing else of it.  So when `a` is a block of rows of a taller
  array `A` (row `p` of `a` is row `off + p` of `A`), the product of the block is the same block of rows of the product of
  `A`: a product computed block of rows by block of rows is the product of the whole.  Two spellings of the product are
  read here over the plain dimension record `DotDims.plain` (contract the left operand's columns with the right
  operand's rows, no batch axes):
  • on the vector unit, the matrix product into a zero accumulator (`kdot_apply`);
  • on the host, `dot_general` (`hdot_apply`);
  both are the sum above, so a row of the first over a block is the row of the second over the whole array
  (`kdot_rows` by coordinates, `kdot_block` at indices given by their coordinates' values).  The sums are compared term
  by term in the same order: no algebra of the extended reals is used, and nothing needs to be finite.
-/
import proofs.«159216_j30812095381601_1_alg».proof.Proof.LibPlainDot

noncomputable section

open scoped BigOperators

namespace Cert.BlockDot

open Idealize.ShloMosaic Idealize.ShloMosaic.ValueIdx Cert.DenseRow Cert.PlainDot

/-- The vector unit's product into the zero accumulator, read at `(p, c)`. -/
theorem kdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    matmul (DotDims.plain R K N) prec a w (constant ⟨2, ![R, N]⟩ .f32 0x00000000#32) (ix2 p c)
      = ∑ k : Fin K, a (ix2 p k) * w (ix2 k c) := by
  show FloatOps.matmul (DotDims.plain R K N) prec a w (constant ⟨2, ![R, N]⟩ .f32 0x00000000#32) (ix2 p c) = _
  rw [Ideal.matmul_constant_zero_apply]
  exact contr_sum (DotDims.plain R K N) rfl rfl (lhs_at R K N) (rhs_at R K N) a w p c

/-- The host's `dot_general`, read at `(p, c)`: the same sum. -/
theorem hdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    Host.dotGeneral (DotDims.plain R K N) prec a w (ix2 p c) = ∑ k : Fin K, a (ix2 p k) * w (ix2 k c) := by
  simp only [Host.dotGeneral]
  rw [Ideal.dotGeneral_apply]
  exact contr_sum (DotDims.plain R K N) rfl rfl (lhs_at R K N) (rhs_at R K N) a w p c

/-- Row `p` of the vector unit's product of `a` is row `p'` of the host's product of `A` when row `p` of `a` is row `p'`
    of `A` and the right operands agree on column `c`. -/
theorem kdot_rows {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (p : Fin R) (p' : Fin R') (c : Fin N)
    (ha : ∀ k : Fin K, (a (ix2 p k) : EReal) = A (ix2 p' k)) (hw : ∀ k : Fin K, (w (ix2 k c) : EReal) = W (ix2 k c)) :
    (matmul (DotDims.plain R K N) prec a w (constant ⟨2, ![R, N]⟩ .f32 0x00000000#32) (ix2 p c) : EReal)
      = Host.dotGeneral (DotDims.plain R' K N) prec' A W (ix2 p' c) := by
  rw [kdot_apply, hdot_apply]
  exact Finset.sum_congr rfl fun k _ => by rw [ha k, hw k]

/-- The same at indices given by the values of their coordinates: the output index `j` of the block and the output index
    `i` of the whole array name the same column, and `i`'s row is `j`'s row moved down by `off`; the block `a` is `A` read
    `off` rows down; the right operands are one array. -/
theorem kdot_block {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (off : ℕ)
    (j : (⟨2, ![R, N]⟩ : Shape).Idx) (i : (⟨2, ![R', N]⟩ : Shape).Idx)
    (hi0 : (i 0).val = off + (j 0).val) (hi1 : (i 1).val = (j 1).val)
    (ha : ∀ (y : (⟨2, ![R, K]⟩ : Shape).Idx) (z : (⟨2, ![R', K]⟩ : Shape).Idx),
      (z 0).val = off + (y 0).val → (z 1).val = (y 1).val → (a y : EReal) = A z)
    (hw : ∀ y : (⟨2, ![K, N]⟩ : Shape).Idx, (w y : EReal) = W y) :
    (matmul (DotDims.plain R K N) prec a w (constant ⟨2, ![R, N]⟩ .f32 0x00000000#32) j : EReal)
      = Host.dotGeneral (DotDims.plain R' K N) prec' A W i := by
  obtain ⟨p, c, rfl⟩ : ∃ (p : Fin R) (c : Fin N), j = ix2 p c := ⟨j 0, j 1, eq_ix2 j⟩
  obtain ⟨p', c', rfl⟩ : ∃ (p' : Fin R') (c' : Fin N), i = ix2 p' c' := ⟨i 0, i 1, eq_ix2 i⟩
  obtain rfl : c' = c := Fin.ext hi1
  exact kdot_rows prec prec' a A w W p p' c' (fun k => ha (ix2 p k) (ix2 p' k) hi0 rfl) (fun k => hw (ix2 k c'))

end Cert.BlockDot

end
-- ==== Proof.LibRegionRows.lean ====
/-
  ROWS OF A MATRIX PRODUCT, read off a block of rows, at the ideal values.

  A grid of blocks of rows computes a matrix product block by block: the block at offset `off` holds rows
  `off, off + 1, …` of the tall left operand, the right operand is whole at every block.  Entry `(p, c)` of the block's
  product is then entry `(off + p, c)` of the product of the whole arrays, `∑ k, A (off + p, k) · W (k, c)`.  Stated
  here once for every extent, over the plain dimension record, with the block and the arrays as variables and the
  relation between them as hypotheses on coordinates; the whole-array product is the function `prodArr A W`.  The sums are
  compared term by term: no algebra of the extended reals is used.
-/
import proofs.«159216_j30812095381601_1_alg».proof.Proof.LibBlockDot

noncomputable section

open scoped BigOperators

namespace Cert.KernelIdeal.RegionValue

open Idealize.ShloMosaic Idealize.ShloMosaic.ValueIdx

/-- The offsets `(0, 0)` of a whole-buffer access are the zero function. -/
theorem off2_zero : (![0, 0] : Fin 2 → Nat) = fun _ => 0 := funext fun a => by fin_cases a <;> rfl

/-- The contents of an array of reals, as a function from its indices to the extended reals.  The identity: it only names
    the type, for a buffer whose element type is known by unfolding only. -/
abbrev realArr (s : Shape) (f : s.Idx → EReal) : s.Idx → EReal := f

/-- The product of an `[R, K]` array and a `[K, N]` array, index by index. -/
def prodArr {R K N : ℕ} (A : (⟨2, ![R, K]⟩ : Shape).Idx → EReal) (W : (⟨2, ![K, N]⟩ : Shape).Idx → EReal) :
    (⟨2, ![R, N]⟩ : Shape).Idx → EReal :=
  fun i => ∑ k : Fin K, A (ix2 (i 0) k) * W (ix2 k (i 1))

theorem prodArr_apply {R K N : ℕ} (A : (⟨2, ![R, K]⟩ : Shape).Idx → EReal) (W : (⟨2, ![K, N]⟩ : Shape).Idx → EReal)
    (p : Fin R) (c : Fin N) : prodArr A W (ix2 p c) = ∑ k : Fin K, A (ix2 p k) * W (ix2 k c) := rfl

/-- The vector unit's product of a block `a` of rows and `w`, at the block's index `y`, is the whole product at the
    array's index `i`, when `i` is `y` moved down by `off` rows, `a` is `A` read `off` rows down, and `w` is `W`. -/
theorem block_prod {R R' K N : ℕ} {φ₁ φ₂ : FTy} (prec : Option ContractPrecision)
    (a : FVec Ideal ⟨2, ![R, K]⟩ φ₁) (w : FVec Ideal ⟨2, ![K, N]⟩ φ₂)
    (A : (⟨2, ![R', K]⟩ : Shape).Idx → EReal) (W : (⟨2, ![K, N]⟩ : Shape).Idx → EReal) (off : ℕ)
    (y : (⟨2, ![R, N]⟩ : Shape).Idx) (i : (⟨2, ![R', N]⟩ : Shape).Idx)
    (hi0 : (i 0).val = off + (y 0).val) (hi1 : (i 1).val = (y 1).val)
    (ha : ∀ (u : (⟨2, ![R, K]⟩ : Shape).Idx) (z : (⟨2, ![R', K]⟩ : Shape).Idx),
      (z 0).val = off + (u 0).val → (z 1).val = (u 1).val → (a u : EReal) = A z)
    (hw : ∀ u : (⟨2, ![K, N]⟩ : Shape).Idx, (w u : EReal) = W u) :
    (matmul (DotDims.plain R K N) prec a w (constant ⟨2, ![R, N]⟩ .f32 0x00000000#32) y : EReal) = prodArr A W i := by
  obtain ⟨p, c, rfl⟩ : ∃ (p : Fin R) (c : Fin N), y = ix2 p c := ⟨y 0, y 1, eq_ix2 y⟩
  obtain ⟨p', c', rfl⟩ : ∃ (p' : Fin R') (c' : Fin N), i = ix2 p' c' := ⟨i 0, i 1, eq_ix2 i⟩
  obtain rfl : c' = c := Fin.ext hi1
  rw [Cert.BlockDot.kdot_apply, prodArr_apply]
  exact Finset.sum_congr rfl fun k _ => by rw [ha (ix2 p k) (ix2 p' k) hi0 rfl, hw (ix2 k c')]

end Cert.KernelIdeal.RegionValue

end
-- ==== Proof.LibProdRows.lean ====
/-
  A MATRIX PRODUCT AS A WHOLE ARRAY, AND SUMS OF ARRAYS, ROW BY ROW, at the ideal values.

  Over LibRegionRows' `prodArr A W` (the product of an `[R, K]` and a `[K, N]` array, entry `(p, c)` being
  `∑ k, A (p, k) · W (k, c)`), generic in every extent:
  • `kprod`: on the vector unit, the matrix product into a zero accumulator over the plain dimension record IS `prodArr`;
  • `hprod`: on the host, `dot_general` over the plain record IS `prodArr`;
  • `prodArr_rows`: row `p` of a product depends on row `p` of the left operand and on nothing else of it;
  • `addArr`, `addArr_rows`: two arrays added entry by entry, and the same locality.
  Together with LibDenseRow's `layerArr_rows` and `actArr_rows` these say that a network of products, dense layers,
  rectifiers and residual sums computed on a block of rows is that block of rows of the network computed on the whole.
  Sums are compared term by term in the same order: no algebra of the extended reals is used.
-/
import proofs.«159216_j30812095381601_1_alg».proof.Proof.LibRegionRows

noncomputable section

open scoped BigOperators

namespace Cert.ProdRows

open Idealize.ShloMosaic Idealize.ShloMosaic.ValueIdx Cert.DenseRow
open Cert.KernelIdeal.RegionValue (prodArr prodArr_apply)

/-- The vector unit's product into the zero accumulator, as a whole array. -/
theorem kprod {R K N : ℕ} {φ₁ φ₂ : FTy} (prec : Option ContractPrecision)
    (a : FVec Ideal ⟨2, ![R, K]⟩ φ₁) (w : FVec Ideal ⟨2, ![K, N]⟩ φ₂) :
    matmul (DotDims.plain R K N) prec a w (constant ⟨2, ![R, N]⟩ .f32 0x00000000#32) = prodArr a w := by
  funext i
  obtain ⟨p, c, rfl⟩ : ∃ (p : Fin R) (c : Fin N), i = ix2 p c := ⟨i 0, i 1, eq_ix2 i⟩
  exact Cert.BlockDot.kdot_apply prec a w p c

/-- The host's `dot_general`, as a whole array. -/
theorem hprod {R K N : ℕ} {φ₁ φ₂ : FTy} (prec : Option ContractPrecision)
    (a : FVec Ideal ⟨2, ![R, K]⟩ φ₁) (w : FVec Ideal ⟨2, ![K, N]⟩ φ₂) :
    Host.dotGeneral (DotDims.plain R K N) prec a w = prodArr a w := by
  funext i
  obtain ⟨p, c, rfl⟩ : ∃ (p : Fin R) (c : Fin N), i = ix2 p c := ⟨i 0, i 1, eq_ix2 i⟩
  exact Cert.BlockDot.hdot_apply prec a w p c

/-- Row `p` of a product depends on row `p` of the left operand only. -/
theorem prodArr_rows {R R' K N : ℕ} (a : (⟨2, ![R, K]⟩ : Shape).Idx → EReal) (A : (⟨2, ![R', K]⟩ : Shape).Idx → EReal)
    (w : (⟨2, ![K, N]⟩ : Shape).Idx → EReal) (p : Fin R) (p' : Fin R')
    (h : ∀ k : Fin K, a (ix2 p k) = A (ix2 p' k)) (c : Fin N) : prodArr a w (ix2 p c) = prodArr A w (ix2 p' c) := by
  rw [prodArr_apply, prodArr_apply]
  exact Finset.sum_congr rfl fun k _ => by rw [h k]

/-- Two arrays added entry by entry. -/
def addArr {s : Shape} (x y : s.Idx → EReal) : s.Idx → EReal := fun i => x i + y i

/-- On either unit, the float sum of two arrays at the ideal values. -/
theorem addf_eq {s : Shape} {φ : FTy} (x y : FVec Ideal s φ) : addf x y = addArr x y := rfl

theorem addArr_rows {R R' N : ℕ} (x y : (⟨2, ![R, N]⟩ : Shape).Idx → EReal) (X Y : (⟨2, ![R', N]⟩ : Shape).Idx → EReal)
    (p : Fin R) (p' : Fin R') (hx : ∀ k : Fin N, x (ix2 p k) = X (ix2 p' k)) (hy : ∀ k : Fin N, y (ix2 p k) = Y (ix2 p' k))
    (c : Fin N) : addArr x y (ix2 p c) = addArr X Y (ix2 p' c) := by
  show x (ix2 p c) + y (ix2 p c) = X (ix2 p' c) + Y (ix2 p' c)
  rw [hx c, hy c]

end Cert.ProdRows

end
-- ==== Proof.LibRowOps.lean ====
/-
  Row operations of a matrix, and of a stack of matrices, read at an index given by coordinates, at the ideal
  values (floats are extended reals, every operation exact).

  A sum or a maximum along the last axis, the "keep the reduced axis as a unit axis" reshaping that follows it, and the
  broadcast of that column back over the row are written in two spellings: the vector unit's
  (`multi_reduction`, `shape_cast` [n] → [n, 1], `broadcast` [n, 1] → [n, m]) on one matrix, and the host's
  (`reduce`, `broadcast_in_dim` [B, n] → [B, n, 1] → [B, n, m]) on a stack of B matrices. Each lemma reads one such
  operation at the coordinates (c, k), respectively (b, c, k): a row sum is the sum over the row's entries, a row
  maximum the fold of `max` over them from the initial value, the two layout operations read the operand at the
  row's coordinate. Read this way the two spellings are the same function of the matrix b of the stack.
-/
import Idealize.ShloMosaic.PureOps.Ideal.Laws
import Idealize.ShloMosaic.Lib.ValueIdx
import Idealize.ShloMosaic.Lib.ValueLayout
import Idealize.ShloMosaic.Lib.Pipeline.Value

noncomputable section

namespace Cert.Lib.RowOps

open Idealize.ShloMosaic Idealize.ShloMosaic.ValueIdx

variable {B n m : Nat} {α : Type}

/-! ## The reduced index with the row's coordinate put back -/

/-- In a matrix reduced along its rows, row `c` with column `k` put back is the entry (c, k). -/
theorem lift_ix1 (h : (⟨2, ![n, m]⟩ : Shape).Reduces [1] ⟨1, ![n]⟩) (c : Fin n) (k : Fin m) :
    h.lift (ix1 c) k = ix2 c k := by
  funext a; apply Fin.ext; fin_cases a <;> rfl

/-- In a stack of matrices reduced along the rows, row (b, c) with column `k` put back is the entry (b, c, k). -/
theorem lift_ix2 (h : (⟨3, ![B, n, m]⟩ : Shape).Reduces [2] ⟨2, ![B, n]⟩) (b : Fin B) (c : Fin n) (k : Fin m) :
    h.lift (ix2 b c) k = ix3 b c k := by
  funext a; apply Fin.ext; fin_cases a <;> rfl

/-! ## Row sums -/

/-- The vector unit's sum along the rows of a matrix, from the zero accumulator, at row `c`: the sum of the row's entries. -/
theorem vec_rowSum (v : FVec Ideal ⟨2, ![n, m]⟩ .f32) (h : (⟨2, ![n, m]⟩ : Shape).Reduces [1] ⟨1, ![n]⟩)
    (hφ : FKind.Formats .f32) (hacc : (0x00000000#32 : BitVec 32) = 0x00000000#32) (c : Fin n) :
    multiReduction .add [1] ⟨1, ![n]⟩ v 0x00000000#32 h hφ hacc (ix1 c) = ∑ k : Fin m, v (ix2 c k) :=
  (Ideal.multiReduction_add_single v 0x00000000#32 h hφ hacc (ix1 c)).trans
    (Finset.sum_congr rfl fun k _ => congrArg v (lift_ix1 h c k))

/-- The host's sum along the rows of a stack of matrices, at row (b, c): the initial value plus the sum of the row's entries. -/
theorem host_rowSum (x : FVec Ideal ⟨3, ![B, n, m]⟩ .f32) (init : (⟨0, ![]⟩ : Shape).Idx → Ideal .f32)
    (h' : (⟨3, ![B, n, m]⟩ : Shape).ReducesTo [2] ⟨2, ![B, n]⟩) (h : (⟨3, ![B, n, m]⟩ : Shape).Reduces [2] ⟨2, ![B, n]⟩)
    (hu : 0 < (⟨0, ![]⟩ : Shape).numel) (b : Fin B) (c : Fin n) :
    Host.reduceAdd x init h' hu (ix2 b c) = init (Shape.Idx.first hu) + ∑ k : Fin m, x (ix3 b c k) := by
  simp only [Host.reduceAdd, Ideal.hostReduceAdd_def]
  rw [Ideal.hostReduceAdd_single h' h]
  exact congrArg (_ + ·) (Finset.sum_congr rfl fun k _ => congrArg x (lift_ix2 h b c k))

/-! ## Row maxima -/

/-- The vector unit's maximum along the rows of a matrix, from the accumulator -∞, at row `c`: the fold of `max` over the row. -/
theorem vec_rowMax (v : FVec Ideal ⟨2, ![n, m]⟩ .f32) (h : (⟨2, ![n, m]⟩ : Shape).Reduces [1] ⟨1, ![n]⟩)
    (hφ : FKind.Formats .f32) (hacc : (0xFF800000#32 : BitVec 32) = 0xFF800000#32) (c : Fin n) :
    multiReduction .maximumf [1] ⟨1, ![n]⟩ v 0xFF800000#32 h hφ hacc (ix1 c)
      = (Finset.univ : Finset (Fin m)).fold max (Ideal.ofBits .f32 0xFF800000#32) (fun k => v (ix2 c k)) :=
  (Ideal.multiReduction_maximumf_single v 0xFF800000#32 h hφ hacc (ix1 c)).trans
    (congrArg (fun f => Finset.fold max (Ideal.ofBits .f32 0xFF800000#32) f (Finset.univ : Finset (Fin m)))
      (funext fun k => congrArg v (lift_ix1 h c k)))

/-- The host's maximum along the rows of a stack of matrices, at row (b, c): the fold of `max` over the row from the initial value. -/
theorem host_rowMax (x : FVec Ideal ⟨3, ![B, n, m]⟩ .f32) (init : (⟨0, ![]⟩ : Shape).Idx → Ideal .f32)
    (h' : (⟨3, ![B, n, m]⟩ : Shape).ReducesTo [2] ⟨2, ![B, n]⟩) (h : (⟨3, ![B, n, m]⟩ : Shape).Reduces [2] ⟨2, ![B, n]⟩)
    (hu : 0 < (⟨0, ![]⟩ : Shape).numel) (b : Fin B) (c : Fin n) :
    Host.reduce FloatOps.maximumf x init h' hu (ix2 b c)
      = (Finset.univ : Finset (Fin m)).fold max (init (Shape.Idx.first hu)) (fun k => x (ix3 b c k)) := by
  rw [Host.reduce_eq_fold_single FloatOps.maximumf x init h' h hu]
  exact congrArg (fun f => Finset.fold max (init (Shape.Idx.first hu)) f (Finset.univ : Finset (Fin m)))
    (funext fun k => congrArg x (lift_ix2 h b c k))

/-! ## The reduced axis kept as a unit axis, and the column broadcast back over the rows -/

/-- A vector of `n` entries cast to a column reads, at (c, 0), entry `c`. -/
theorem vec_col (v : (⟨1, ![n]⟩ : Shape).Idx → α) (h : (⟨1, ![n]⟩ : Shape).ShapeCasts ⟨2, ![n, 1]⟩) (c : Fin n) (u : Fin 1) :
    shapeCast ⟨2, ![n, 1]⟩ v h (ix2 c u) = v (ix1 c) :=
  shapeCast_apply v h _ _ (by
    have hu : u.val = 0 := by omega
    rw [Shape.rowMajor_val_one, Shape.rowMajor_val_two]
    show c.val = c.val * 1 + u.val
    omega)

/-- A column broadcast over `m` columns reads, at (c, k), the column's entry `c`. -/
theorem vec_colBroadcast (w : (⟨2, ![n, 1]⟩ : Shape).Idx → α) (h : (⟨2, ![n, 1]⟩ : Shape).Broadcasts ⟨2, ![n, m]⟩)
    (c : Fin n) (k : Fin m) : broadcastTo ⟨2, ![n, m]⟩ w h (ix2 c k) = w (ix2 c (0 : Fin 1)) := by
  refine broadcastTo_apply w h (ix2 c k) (ix2 c (0 : Fin 1)) fun ax => ?_
  match ax with
  | ⟨0, _⟩ =>
    show c.val = if n = 1 then 0 else c.val
    split
    · have := c.isLt; omega
    · rfl
  | ⟨1, _⟩ =>
    show (0 : Nat) = if (1 : Nat) = 1 then 0 else k.val
    rw [if_pos rfl]

/-- The host's `broadcast_in_dim` of a [B, n] array to [B, n, 1] reads, at (b, c, 0), the entry (b, c). -/
theorem host_col (v : (⟨2, ![B, n]⟩ : Shape).Idx → α) (h : (⟨2, ![B, n]⟩ : Shape).BroadcastsInDim ⟨3, ![B, n, 1]⟩ ![0, 1])
    (b : Fin B) (c : Fin n) (u : Fin 1) : broadcastInDim ⟨3, ![B, n, 1]⟩ ![0, 1] h v (ix3 b c u) = v (ix2 b c) := by
  refine broadcastInDim_apply _ h v (ix3 b c u) (ix2 b c) fun a => ?_
  match a with
  | ⟨0, _⟩ =>
    show b.val = if B = 1 then 0 else b.val
    split
    · have := b.isLt; omega
    · rfl
  | ⟨1, _⟩ =>
    show c.val = if n = 1 then 0 else c.val
    split
    · have := c.isLt; omega
    · rfl

/-- The host's `broadcast_in_dim` of a [B, n, 1] array to [B, n, m] reads, at (b, c, k), the entry (b, c, 0). -/
theorem host_colBroadcast (w : (⟨3, ![B, n, 1]⟩ : Shape).Idx → α)
    (h : (⟨3, ![B, n, 1]⟩ : Shape).BroadcastsInDim ⟨3, ![B, n, m]⟩ ![0, 1, 2]) (b : Fin B) (c : Fin n) (k : Fin m) :
    broadcastInDim ⟨3, ![B, n, m]⟩ ![0, 1, 2] h w (ix3 b c k) = w (ix3 b c (0 : Fin 1)) := by
  refine broadcastInDim_apply _ h w (ix3 b c k) (ix3 b c (0 : Fin 1)) fun a => ?_
  match a with
  | ⟨0, _⟩ =>
    show b.val = if B = 1 then 0 else b.val
    split
    · have := b.isLt; omega
    · rfl
  | ⟨1, _⟩ =>
    show c.val = if n = 1 then 0 else c.val
    split
    · have := c.isLt; omega
    · rfl
  | ⟨2, _⟩ =>
    show (0 : Nat) = if (1 : Nat) = 1 then 0 else k.val
    rw [if_pos rfl]

/-! ## Pointwise operations in the host's and the vector unit's spelling: the same function of each entry -/

theorem sqrt_apply {s : Shape} {φ : FTy} (x : FVec Ideal s φ) (i : s.Idx) : sqrt x i = Ideal.sqrt (x i) := rfl
theorem exp_apply {s : Shape} {φ : FTy} (x : FVec Ideal s φ) (i : s.Idx) : exp x i = Ideal.exp (x i) := rfl
theorem host_sqrt_apply {s : Shape} {φ : FTy} (x : FVec Ideal s φ) (i : s.Idx) : Host.sqrt x i = Ideal.sqrt (x i) := rfl
theorem host_exp_apply {s : Shape} {φ : FTy} (x : FVec Ideal s φ) (i : s.Idx) : Host.exp x i = Ideal.exp (x i) := rfl
theorem host_divf_apply {s : Shape} {φ : FTy} (x y : FVec Ideal s φ) (i : s.Idx) : Host.divf x y i = Ideal.div (x i) (y i) := rfl
/-- A scalar constant of the vector unit is the extended real its bit pattern denotes. -/
theorem scalar_ofBits (φ : FTy) (w : BitVec φ.bits) : Scalar.ofBits (F := Ideal) φ w = Ideal.ofBits φ w := rfl

/-- The host's `broadcast_in_dim` of a rank-zero array reads its one entry everywhere. -/
theorem host_splat {t : Shape} (x : (⟨0, ![]⟩ : Shape).Idx → α) (h : (⟨0, ![]⟩ : Shape).BroadcastsInDim t ![]) (j : t.Idx) :
    broadcastInDim t ![] h x j = x ix0 :=
  broadcastInDim_apply _ h x j ix0 fun a => a.elim0

end Cert.Lib.RowOps

end
-- ==== Proof.LibRowNorm.lean ====
/-
  A BIAS ROW WITH A RECTIFIER, AND LAYER NORMALISATION OF THE ROWS OF A MATRIX, in two spellings, at the ideal values
  (floats are extended reals, every operation exact).

  For a matrix `z` of `R` rows and `N` columns and one-row arrays `b`, `g`, `e`:
  • `biasAct z b` at `(p, c)` is `max (z (p, c) + b c) 0`;
  • `normArr cN ε z b g e` at `(p, c)` is `(h c − μ) · rsqrt (σ² + ε) · g c + e c`, where `h k = z (p, k) + b k` is the biased
    row, `μ = (∑ k, h k) / cN` its mean and `σ² = (∑ k, (h k − μ)²) / cN` its variance — the order of the operations is the
    one both programs use, so no law of the extended reals is needed and nothing has to be finite.
  Each output row depends on the same input row and on nothing else of `z` (`biasAct_rows`, `normArr_rows`): a grid of
  row blocks computes the whole array's function block by block.
  The vector unit spells the row `b` as a one-row array cast to itself and broadcast over the rows, a column as a
  `shape_cast` of the reduced vector broadcast over the columns, a scalar as a splat; the host spells them as
  `broadcast_in_dim`s of a vector, of the reduced vector and of a rank-zero constant, and sums a row with `reduce` from
  an initial zero.  The two spellings are the same arrays (`row_spellings`, `col_spellings`, `sumCol_spellings`,
  `splat_spellings`), so the host's expressions are the vector unit's at another row count (`hbias`, `hnorm`).
-/
import Idealize.ShloMosaic.PureOps.Ideal.Laws
import Idealize.ShloMosaic.Lib.ValueIdx
import Idealize.ShloMosaic.Lib.ValueLayout
import Idealize.ShloMosaic.Lib.Pipeline.Value
import proofs.«159216_j30812095381601_1_alg».proof.Proof.LibRowOps

noncomputable section

open scoped BigOperators

namespace Cert.Lib.RowNorm

open Idealize.ShloMosaic Idealize.ShloMosaic.ValueIdx Cert.Lib.RowOps

variable {R N : ℕ}

/-! ## The two functions -/

/-- The value of the all-zero word: the level a rectifier compares with. It is never evaluated. -/
def zf : EReal := Ideal.ofBits .f32 0x00000000#32

/-- A bias row added to every row, then the rectifier. -/
def biasAct (z : (⟨2, ![R, N]⟩ : Shape).Idx → EReal) (b : (⟨2, ![1, N]⟩ : Shape).Idx → EReal) :
    (⟨2, ![R, N]⟩ : Shape).Idx → EReal :=
  fun i => max (z i + b (ix2 (0 : Fin 1) (i 1))) zf

theorem biasAct_apply (z : (⟨2, ![R, N]⟩ : Shape).Idx → EReal) (b : (⟨2, ![1, N]⟩ : Shape).Idx → EReal) (p : Fin R) (c : Fin N) :
    biasAct z b (ix2 p c) = max (z (ix2 p c) + b (ix2 (0 : Fin 1) c)) zf := rfl

/-- Layer normalisation of one row `h`, scaled by `g` and shifted by `e`, at column `j`. -/
def normRow (cN ε : EReal) (h g e : Fin N → EReal) (j : Fin N) : EReal :=
  (h j - Ideal.div (∑ k : Fin N, h k) cN)
      * Ideal.rsqrt (Ideal.div (∑ k : Fin N, (h k - Ideal.div (∑ k : Fin N, h k) cN) * (h k - Ideal.div (∑ k : Fin N, h k) cN)) cN + ε)
    * g j + e j

/-- Layer normalisation of every biased row of `z`. -/
def normArr (cN ε : EReal) (z : (⟨2, ![R, N]⟩ : Shape).Idx → EReal) (b g e : (⟨2, ![1, N]⟩ : Shape).Idx → EReal) :
    (⟨2, ![R, N]⟩ : Shape).Idx → EReal :=
  fun i => normRow cN ε (fun k => z (ix2 (i 0) k) + b (ix2 (0 : Fin 1) k)) (fun k => g (ix2 (0 : Fin 1) k))
    (fun k => e (ix2 (0 : Fin 1) k)) (i 1)

theorem normArr_apply (cN ε : EReal) (z : (⟨2, ![R, N]⟩ : Shape).Idx → EReal) (b g e : (⟨2, ![1, N]⟩ : Shape).Idx → EReal)
    (p : Fin R) (c : Fin N) :
    normArr cN ε z b g e (ix2 p c) = normRow cN ε (fun k => z (ix2 p k) + b (ix2 (0 : Fin 1) k)) (fun k => g (ix2 (0 : Fin 1) k))
      (fun k => e (ix2 (0 : Fin 1) k)) c := rfl

/-! ## Each output row depends on the same input row only -/

theorem biasAct_rows {R' : ℕ} (z : (⟨2, ![R, N]⟩ : Shape).Idx → EReal) (Z : (⟨2, ![R', N]⟩ : Shape).Idx → EReal)
    (b : (⟨2, ![1, N]⟩ : Shape).Idx → EReal) (p : Fin R) (p' : Fin R') (h : ∀ k : Fin N, z (ix2 p k) = Z (ix2 p' k)) (c : Fin N) :
    biasAct z b (ix2 p c) = biasAct Z b (ix2 p' c) := by
  rw [biasAct_apply, biasAct_apply, h c]

theorem normArr_rows {R' : ℕ} (cN ε : EReal) (z : (⟨2, ![R, N]⟩ : Shape).Idx → EReal) (Z : (⟨2, ![R', N]⟩ : Shape).Idx → EReal)
    (b g e : (⟨2, ![1, N]⟩ : Shape).Idx → EReal) (p : Fin R) (p' : Fin R') (h : ∀ k : Fin N, z (ix2 p k) = Z (ix2 p' k)) (c : Fin N) :
    normArr cN ε z b g e (ix2 p c) = normArr cN ε Z b g e (ix2 p' c) := by
  rw [normArr_apply, normArr_apply,
    show (fun k => z (ix2 p k) + b (ix2 (0 : Fin 1) k)) = fun k => Z (ix2 p' k) + b (ix2 (0 : Fin 1) k) from
      funext fun k => by rw [h k]]

/-! ## The vector unit's spelling -/

/-- A one-row bias cast to itself and broadcast over the rows, added, then the larger of the sum and the zero splat. -/
theorem kbias (z : FVec Ideal ⟨2, ![R, N]⟩ .f32) (b : FVec Ideal ⟨2, ![1, N]⟩ .f32)
    (hz : (⟨2, ![R, N]⟩ : Shape).ShapeCasts ⟨2, ![R, N]⟩) (hb : (⟨2, ![1, N]⟩ : Shape).ShapeCasts ⟨2, ![1, N]⟩)
    (hbc : (⟨2, ![1, N]⟩ : Shape).Broadcasts ⟨2, ![R, N]⟩) :
    maximumf (addf (shapeCast ⟨2, ![R, N]⟩ z hz) (broadcastTo ⟨2, ![R, N]⟩ (shapeCast ⟨2, ![1, N]⟩ b hb) hbc))
        (broadcast ⟨2, ![R, N]⟩ (Scalar.ofBits (F := Ideal) .f32 0x00000000#32))
      = biasAct z b := by
  funext i
  obtain ⟨p, c, rfl⟩ : ∃ (p : Fin R) (c : Fin N), i = ix2 p c := ⟨i 0, i 1, eq_ix2 i⟩
  show max (shapeCast ⟨2, ![R, N]⟩ z hz (ix2 p c) + broadcastTo ⟨2, ![R, N]⟩ (shapeCast ⟨2, ![1, N]⟩ b hb) hbc (ix2 p c)) zf = _
  rw [shapeCast_self, shapeCast_self, broadcastTo_1b_ab_apply]
  rfl

/-- The rows biased by a one-row array, on the vector unit. -/
theorem kaddRow_apply (z : FVec Ideal ⟨2, ![R, N]⟩ .f32) (b : FVec Ideal ⟨2, ![1, N]⟩ .f32)
    (hz : (⟨2, ![R, N]⟩ : Shape).ShapeCasts ⟨2, ![R, N]⟩) (hb : (⟨2, ![1, N]⟩ : Shape).ShapeCasts ⟨2, ![1, N]⟩)
    (hbc : (⟨2, ![1, N]⟩ : Shape).Broadcasts ⟨2, ![R, N]⟩) (p : Fin R) (c : Fin N) :
    addf (shapeCast ⟨2, ![R, N]⟩ z hz) (broadcastTo ⟨2, ![R, N]⟩ (shapeCast ⟨2, ![1, N]⟩ b hb) hbc) (ix2 p c)
      = z (ix2 p c) + b (ix2 (0 : Fin 1) c) := by
  show shapeCast ⟨2, ![R, N]⟩ z hz (ix2 p c) + broadcastTo ⟨2, ![R, N]⟩ (shapeCast ⟨2, ![1, N]⟩ b hb) hbc (ix2 p c) = _
  rw [shapeCast_self, shapeCast_self, broadcastTo_1b_ab_apply]

/-- The mean (or any row sum divided by a splat scalar) kept as a column, on the vector unit, at row `p`. -/
theorem kmeanCol_apply (h : FVec Ideal ⟨2, ![R, N]⟩ .f32) (w : BitVec 32)
    (hred : (⟨2, ![R, N]⟩ : Shape).Reduces [1] ⟨1, ![R]⟩) (hφ : FKind.Formats .f32)
    (hacc : (0x00000000#32 : BitVec 32) = 0x00000000#32) (hcol : (⟨1, ![R]⟩ : Shape).ShapeCasts ⟨2, ![R, 1]⟩) (p : Fin R) (u : Fin 1) :
    divf (shapeCast ⟨2, ![R, 1]⟩ (multiReduction .add [1] ⟨1, ![R]⟩ h 0x00000000#32 hred hφ hacc) hcol)
        (broadcast ⟨2, ![R, 1]⟩ (Scalar.ofBits (F := Ideal) .f32 w)) (ix2 p u)
      = Ideal.div (∑ k : Fin N, h (ix2 p k)) (Ideal.ofBits .f32 w) := by
  show Ideal.div (shapeCast ⟨2, ![R, 1]⟩ (multiReduction .add [1] ⟨1, ![R]⟩ h 0x00000000#32 hred hφ hacc) hcol (ix2 p u)) (Ideal.ofBits .f32 w) = _
  rw [vec_col, vec_rowSum]

/-- The whole normalisation on the vector unit: the biased rows, their mean column, the centred rows, the variance
    column, its reciprocal root broadcast back, the scale row and the shift row. -/
theorem knorm (z : FVec Ideal ⟨2, ![R, N]⟩ .f32) (b g e : FVec Ideal ⟨2, ![1, N]⟩ .f32) (wN wε : BitVec 32)
    (hz : (⟨2, ![R, N]⟩ : Shape).ShapeCasts ⟨2, ![R, N]⟩) (hb : (⟨2, ![1, N]⟩ : Shape).ShapeCasts ⟨2, ![1, N]⟩)
    (hbc : (⟨2, ![1, N]⟩ : Shape).Broadcasts ⟨2, ![R, N]⟩)
    (hred : (⟨2, ![R, N]⟩ : Shape).Reduces [1] ⟨1, ![R]⟩) (hφ : FKind.Formats .f32)
    (hacc : (0x00000000#32 : BitVec 32) = 0x00000000#32) (hcol : (⟨1, ![R]⟩ : Shape).ShapeCasts ⟨2, ![R, 1]⟩)
    (hcb : (⟨2, ![R, 1]⟩ : Shape).Broadcasts ⟨2, ![R, N]⟩) :
    addf (mulf (mulf
          (subf (addf (shapeCast ⟨2, ![R, N]⟩ z hz) (broadcastTo ⟨2, ![R, N]⟩ (shapeCast ⟨2, ![1, N]⟩ b hb) hbc))
            (broadcastTo ⟨2, ![R, N]⟩
              (divf (shapeCast ⟨2, ![R, 1]⟩ (multiReduction .add [1] ⟨1, ![R]⟩
                  (addf (shapeCast ⟨2, ![R, N]⟩ z hz) (broadcastTo ⟨2, ![R, N]⟩ (shapeCast ⟨2, ![1, N]⟩ b hb) hbc)) 0x00000000#32 hred hφ hacc) hcol)
                (broadcast ⟨2, ![R, 1]⟩ (Scalar.ofBits (F := Ideal) .f32 wN))) hcb))
          (broadcastTo ⟨2, ![R, N]⟩
            (rsqrt (addf
              (divf (shapeCast ⟨2, ![R, 1]⟩ (multiReduction .add [1] ⟨1, ![R]⟩
                  (mulf
                    (subf (addf (shapeCast ⟨2, ![R, N]⟩ z hz) (broadcastTo ⟨2, ![R, N]⟩ (shapeCast ⟨2, ![1, N]⟩ b hb) hbc))
                      (broadcastTo ⟨2, ![R, N]⟩
                        (divf (shapeCast ⟨2, ![R, 1]⟩ (multiReduction .add [1] ⟨1, ![R]⟩
                            (addf (shapeCast ⟨2, ![R, N]⟩ z hz) (broadcastTo ⟨2, ![R, N]⟩ (shapeCast ⟨2, ![1, N]⟩ b hb) hbc)) 0x00000000#32 hred hφ hacc) hcol)
                          (broadcast ⟨2, ![R, 1]⟩ (Scalar.ofBits (F := Ideal) .f32 wN))) hcb))
                    (subf (addf (shapeCast ⟨2, ![R, N]⟩ z hz) (broadcastTo ⟨2, ![R, N]⟩ (shapeCast ⟨2, ![1, N]⟩ b hb) hbc))
                      (broadcastTo ⟨2, ![R, N]⟩
                        (divf (shapeCast ⟨2, ![R, 1]⟩ (multiReduction .add [1] ⟨1, ![R]⟩
                            (addf (shapeCast ⟨2, ![R, N]⟩ z hz) (broadcastTo ⟨2, ![R, N]⟩ (shapeCast ⟨2, ![1, N]⟩ b hb) hbc)) 0x00000000#32 hred hφ hacc) hcol)
                          (broadcast ⟨2, ![R, 1]⟩ (Scalar.ofBits (F := Ideal) .f32 wN))) hcb)))
                  0x00000000#32 hred hφ hacc) hcol)
                (broadcast ⟨2, ![R, 1]⟩ (Scalar.ofBits (F := Ideal) .f32 wN)))
              (broadcast ⟨2, ![R, 1]⟩ (Scalar.ofBits (F := Ideal) .f32 wε)))) hcb))
        (broadcastTo ⟨2, ![R, N]⟩ (shapeCast ⟨2, ![1, N]⟩ g hb) hbc))
      (broadcastTo ⟨2, ![R, N]⟩ (shapeCast ⟨2, ![1, N]⟩ e hb) hbc)
      = normArr (Ideal.ofBits .f32 wN) (Ideal.ofBits .f32 wε) z b g e := by
  -- name the biased rows and read them at an index
  have eH := kaddRow_apply z b hz hb hbc
  generalize addf (shapeCast ⟨2, ![R, N]⟩ z hz) (broadcastTo ⟨2, ![R, N]⟩ (shapeCast ⟨2, ![1, N]⟩ b hb) hbc) = H at eH ⊢
  -- the mean column
  have eM := kmeanCol_apply H wN hred hφ hacc hcol
  generalize divf (shapeCast ⟨2, ![R, 1]⟩ (multiReduction .add [1] ⟨1, ![R]⟩ H 0x00000000#32 hred hφ hacc) hcol)
    (broadcast ⟨2, ![R, 1]⟩ (Scalar.ofBits (F := Ideal) .f32 wN)) = M at eM ⊢
  -- the centred rows
  have eD : ∀ (p : Fin R) (c : Fin N), subf H (broadcastTo ⟨2, ![R, N]⟩ M hcb) (ix2 p c)
      = H (ix2 p c) - Ideal.div (∑ k : Fin N, H (ix2 p k)) (Ideal.ofBits .f32 wN) := fun p c => by
    show H (ix2 p c) - broadcastTo ⟨2, ![R, N]⟩ M hcb (ix2 p c) = _
    rw [vec_colBroadcast, eM]
  generalize subf H (broadcastTo ⟨2, ![R, N]⟩ M hcb) = D at eD ⊢
  -- the variance column
  have eV := kmeanCol_apply (mulf D D) wN hred hφ hacc hcol
  generalize divf (shapeCast ⟨2, ![R, 1]⟩ (multiReduction .add [1] ⟨1, ![R]⟩ (mulf D D) 0x00000000#32 hred hφ hacc) hcol)
    (broadcast ⟨2, ![R, 1]⟩ (Scalar.ofBits (F := Ideal) .f32 wN)) = Vr at eV ⊢
  funext i
  obtain ⟨p, c, rfl⟩ : ∃ (p : Fin R) (c : Fin N), i = ix2 p c := ⟨i 0, i 1, eq_ix2 i⟩
  show D (ix2 p c) * broadcastTo ⟨2, ![R, N]⟩ (rsqrt (addf Vr (broadcast ⟨2, ![R, 1]⟩ (Scalar.ofBits (F := Ideal) .f32 wε)))) hcb (ix2 p c)
      * broadcastTo ⟨2, ![R, N]⟩ (shapeCast ⟨2, ![1, N]⟩ g hb) hbc (ix2 p c)
    + broadcastTo ⟨2, ![R, N]⟩ (shapeCast ⟨2, ![1, N]⟩ e hb) hbc (ix2 p c) = _
  rw [vec_colBroadcast, shapeCast_self, shapeCast_self, broadcastTo_1b_ab_apply, broadcastTo_1b_ab_apply, eD]
  show _ * Ideal.rsqrt (Vr (ix2 p (0 : Fin 1)) + Ideal.ofBits .f32 wε) * _ + _ = _
  rw [eV]
  show _ * Ideal.rsqrt (Ideal.div (∑ k : Fin N, D (ix2 p k) * D (ix2 p k)) (Ideal.ofBits .f32 wN) + Ideal.ofBits .f32 wε) * _ + _ = _
  rw [normArr_apply]
  unfold normRow
  simp only [eD, eH]

/-! ## A block of rows -/

/-- The bias and rectifier of a block of rows is the same block of rows of the bias and rectifier of the whole: `i` is the
    block's index `y` moved down by `off` rows, the block `z` is `Z` read `off` rows down, the bias rows are one array. -/
theorem biasAct_block {R' : ℕ} (z : (⟨2, ![R, N]⟩ : Shape).Idx → EReal) (b : (⟨2, ![1, N]⟩ : Shape).Idx → EReal)
    (Z : (⟨2, ![R', N]⟩ : Shape).Idx → EReal) (B : (⟨2, ![1, N]⟩ : Shape).Idx → EReal) (off : ℕ)
    (y : (⟨2, ![R, N]⟩ : Shape).Idx) (i : (⟨2, ![R', N]⟩ : Shape).Idx)
    (hi0 : (i 0).val = off + (y 0).val) (hi1 : (i 1).val = (y 1).val)
    (hz : ∀ (u : (⟨2, ![R, N]⟩ : Shape).Idx) (v : (⟨2, ![R', N]⟩ : Shape).Idx),
      (v 0).val = off + (u 0).val → (v 1).val = (u 1).val → z u = Z v)
    (hb : ∀ u : (⟨2, ![1, N]⟩ : Shape).Idx, b u = B u) :
    biasAct z b y = biasAct Z B i := by
  obtain ⟨p, c, rfl⟩ : ∃ (p : Fin R) (c : Fin N), y = ix2 p c := ⟨y 0, y 1, eq_ix2 y⟩
  obtain ⟨p', c', rfl⟩ : ∃ (p' : Fin R') (c' : Fin N), i = ix2 p' c' := ⟨i 0, i 1, eq_ix2 i⟩
  obtain rfl : c' = c := Fin.ext hi1
  rw [show b = B from funext hb]
  exact biasAct_rows z Z B p p' (fun k => hz (ix2 p k) (ix2 p' k) hi0 rfl) c'

/-- The same for the normalisation. -/
theorem normArr_block {R' : ℕ} (cN ε : EReal) (z : (⟨2, ![R, N]⟩ : Shape).Idx → EReal) (b g e : (⟨2, ![1, N]⟩ : Shape).Idx → EReal)
    (Z : (⟨2, ![R', N]⟩ : Shape).Idx → EReal) (B G E : (⟨2, ![1, N]⟩ : Shape).Idx → EReal) (off : ℕ)
    (y : (⟨2, ![R, N]⟩ : Shape).Idx) (i : (⟨2, ![R', N]⟩ : Shape).Idx)
    (hi0 : (i 0).val = off + (y 0).val) (hi1 : (i 1).val = (y 1).val)
    (hz : ∀ (u : (⟨2, ![R, N]⟩ : Shape).Idx) (v : (⟨2, ![R', N]⟩ : Shape).Idx),
      (v 0).val = off + (u 0).val → (v 1).val = (u 1).val → z u = Z v)
    (hb : ∀ u : (⟨2, ![1, N]⟩ : Shape).Idx, b u = B u) (hg : ∀ u : (⟨2, ![1, N]⟩ : Shape).Idx, g u = G u)
    (he : ∀ u : (⟨2, ![1, N]⟩ : Shape).Idx, e u = E u) :
    normArr cN ε z b g e y = normArr cN ε Z B G E i := by
  obtain ⟨p, c, rfl⟩ : ∃ (p : Fin R) (c : Fin N), y = ix2 p c := ⟨y 0, y 1, eq_ix2 y⟩
  obtain ⟨p', c', rfl⟩ : ∃ (p' : Fin R') (c' : Fin N), i = ix2 p' c' := ⟨i 0, i 1, eq_ix2 i⟩
  obtain rfl : c' = c := Fin.ext hi1
  rw [show b = B from funext hb, show g = G from funext hg, show e = E from funext he]
  exact normArr_rows cN ε z Z B G E p p' (fun k => hz (ix2 p k) (ix2 p' k) hi0 rfl) c'

/-! ## The host's layouts are the vector unit's -/

/-- A vector laid out as one row and then over `R` rows: `broadcast_in_dim` twice on the host, a cast to one row and a
    broadcast on the vector unit. -/
theorem row_spellings {α : Type} (b : (⟨1, ![N]⟩ : Shape).Idx → α)
    (h1 : (⟨1, ![N]⟩ : Shape).BroadcastsInDim ⟨2, ![1, N]⟩ ![1]) (h2 : (⟨2, ![1, N]⟩ : Shape).BroadcastsInDim ⟨2, ![R, N]⟩ ![0, 1])
    (hr : (⟨1, ![N]⟩ : Shape).ShapeCasts ⟨2, ![1, N]⟩) (hbc : (⟨2, ![1, N]⟩ : Shape).Broadcasts ⟨2, ![R, N]⟩) :
    broadcastInDim ⟨2, ![R, N]⟩ ![0, 1] h2 (broadcastInDim ⟨2, ![1, N]⟩ ![1] h1 b) = broadcastTo ⟨2, ![R, N]⟩ (shapeCast ⟨2, ![1, N]⟩ b hr) hbc := by
  funext i
  obtain ⟨p, c, rfl⟩ : ∃ (p : Fin R) (c : Fin N), i = ix2 p c := ⟨i 0, i 1, eq_ix2 i⟩
  rw [broadcastTo_1b_ab_apply, shapeCast_a_1a_apply]
  have e2 : broadcastInDim ⟨2, ![R, N]⟩ ![0, 1] h2 (broadcastInDim ⟨2, ![1, N]⟩ ![1] h1 b) (ix2 p c)
      = broadcastInDim ⟨2, ![1, N]⟩ ![1] h1 b (ix2 (0 : Fin 1) c) :=
    broadcastInDim_apply _ h2 _ (ix2 p c) (ix2 (0 : Fin 1) c) fun ax => by
      match ax with
      | ⟨0, _⟩ => show 0 = if (1 : ℕ) = 1 then 0 else p.val; rw [if_pos rfl]
      | ⟨1, _⟩ =>
        show c.val = if N = 1 then 0 else c.val
        split
        · have := c.isLt; omega
        · rfl
  have e1 : broadcastInDim ⟨2, ![1, N]⟩ ![1] h1 b (ix2 (0 : Fin 1) c) = b (ix1 c) :=
    broadcastInDim_apply _ h1 b (ix2 (0 : Fin 1) c) (ix1 c) fun ax => by
      match ax with
      | ⟨0, _⟩ =>
        show c.val = if N = 1 then 0 else c.val
        split
        · have := c.isLt; omega
        · rfl
  rw [e2, e1]

/-- A column laid out over `N` columns: `broadcast_in_dim` on the host, a broadcast on the vector unit. -/
theorem col_spellings {α : Type} (m : (⟨2, ![R, 1]⟩ : Shape).Idx → α)
    (h4 : (⟨2, ![R, 1]⟩ : Shape).BroadcastsInDim ⟨2, ![R, N]⟩ ![0, 1]) (hcb : (⟨2, ![R, 1]⟩ : Shape).Broadcasts ⟨2, ![R, N]⟩) :
    broadcastInDim ⟨2, ![R, N]⟩ ![0, 1] h4 m = broadcastTo ⟨2, ![R, N]⟩ m hcb := by
  funext i
  obtain ⟨p, c, rfl⟩ : ∃ (p : Fin R) (c : Fin N), i = ix2 p c := ⟨i 0, i 1, eq_ix2 i⟩
  rw [vec_colBroadcast]
  refine broadcastInDim_apply _ h4 m (ix2 p c) (ix2 p (0 : Fin 1)) fun ax => ?_
  match ax with
  | ⟨0, _⟩ =>
    show p.val = if R = 1 then 0 else p.val
    split
    · have := p.isLt; omega
    · rfl
  | ⟨1, _⟩ => show (0 : ℕ) = if (1 : ℕ) = 1 then 0 else c.val; rw [if_pos rfl]

/-- The sums of the rows kept as a column: the host's `reduce` from an initial zero laid out by `broadcast_in_dim`, the
    vector unit's reduction from the zero accumulator cast to a column. -/
theorem sumCol_spellings (x : FVec Ideal ⟨2, ![R, N]⟩ .f32)
    (hred' : (⟨2, ![R, N]⟩ : Shape).ReducesTo [1] ⟨1, ![R]⟩) (hu : 0 < (⟨0, ![]⟩ : Shape).numel)
    (h3 : (⟨1, ![R]⟩ : Shape).BroadcastsInDim ⟨2, ![R, 1]⟩ ![0])
    (hred : (⟨2, ![R, N]⟩ : Shape).Reduces [1] ⟨1, ![R]⟩) (hφ : FKind.Formats .f32)
    (hacc : (0x00000000#32 : BitVec 32) = 0x00000000#32) (hcol : (⟨1, ![R]⟩ : Shape).ShapeCasts ⟨2, ![R, 1]⟩) :
    broadcastInDim ⟨2, ![R, 1]⟩ ![0] h3 (Host.reduceAdd x (constant (F := Ideal) ⟨0, ![]⟩ .f32 0x00000000#32) hred' hu)
      = shapeCast ⟨2, ![R, 1]⟩ (multiReduction .add [1] ⟨1, ![R]⟩ x 0x00000000#32 hred hφ hacc) hcol := by
  funext i
  obtain ⟨p, u, rfl⟩ : ∃ (p : Fin R) (u : Fin 1), i = ix2 p u := ⟨i 0, i 1, eq_ix2 i⟩
  rw [vec_col, vec_rowSum]
  have e3 : broadcastInDim ⟨2, ![R, 1]⟩ ![0] h3 (Host.reduceAdd x (constant (F := Ideal) ⟨0, ![]⟩ .f32 0x00000000#32) hred' hu) (ix2 p u)
      = Host.reduceAdd x (constant (F := Ideal) ⟨0, ![]⟩ .f32 0x00000000#32) hred' hu (ix1 p) :=
    broadcastInDim_apply _ h3 _ (ix2 p u) (ix1 p) fun ax => by
      match ax with
      | ⟨0, _⟩ =>
        show p.val = if R = 1 then 0 else p.val
        split
        · have := p.isLt; omega
        · rfl
  rw [e3]
  simp only [Host.reduceAdd, Ideal.hostReduceAdd_def]
  rw [Ideal.hostReduceAdd_single hred' hred]
  show Ideal.ofBits .f32 0x00000000#32 + _ = _
  rw [Ideal.ofBits_zero_f32, zero_add]
  exact Finset.sum_congr rfl fun k _ => congrArg x (lift_ix1 hred p k)

/-- A scalar over a whole array: the host's `broadcast_in_dim` of a rank-zero constant, the vector unit's splat. -/
theorem splat_spellings {t : Shape} (φ : FTy) (w : BitVec φ.bits) (h : (⟨0, ![]⟩ : Shape).BroadcastsInDim t ![]) :
    broadcastInDim t ![] h (constant (F := Ideal) ⟨0, ![]⟩ φ w) = broadcast t (Scalar.ofBits (F := Ideal) φ w) := by
  funext j
  rw [host_splat]
  rfl

/-- The host's quotient and reciprocal root are the vector unit's. -/
theorem hostDivf_eq {s : Shape} {φ : FTy} (x y : FVec Ideal s φ) : Host.divf x y = divf x y := rfl
theorem hostRsqrt_eq {s : Shape} {φ : FTy} (x : FVec Ideal s φ) : Host.rsqrt x = rsqrt x := rfl

/-! ## The host's spelling -/

/-- The bias vector laid out over the rows, added, then the larger of the sum and the zero constant laid out over the array. -/
theorem hbias (z : FVec Ideal ⟨2, ![R, N]⟩ .f32) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (h0 : (⟨0, ![]⟩ : Shape).BroadcastsInDim ⟨2, ![R, N]⟩ ![])
    (hr : (⟨1, ![N]⟩ : Shape).ShapeCasts ⟨2, ![1, N]⟩)
    (hz : (⟨2, ![R, N]⟩ : Shape).ShapeCasts ⟨2, ![R, N]⟩) (hb : (⟨2, ![1, N]⟩ : Shape).ShapeCasts ⟨2, ![1, N]⟩)
    (hbc : (⟨2, ![1, N]⟩ : Shape).Broadcasts ⟨2, ![R, N]⟩) :
    maximumf (addf z (broadcastInDim ⟨2, ![R, N]⟩ ![0, 1] h2 (broadcastInDim ⟨2, ![1, N]⟩ ![1] h1 b))) (broadcastInDim ⟨2, ![R, N]⟩ ![] h0 (constant (F := Ideal) ⟨0, ![]⟩ .f32 0x00000000#32))
      = biasAct z (shapeCast ⟨2, ![1, N]⟩ b hr) := by
  rw [row_spellings b h1 h2 hr hbc, splat_spellings]
  have k := kbias z (shapeCast ⟨2, ![1, N]⟩ b hr) hz hb hbc
  rw [shapeCast_self, shapeCast_self] at k
  exact k

/-- The whole normalisation on the host. -/
theorem hnorm (z : FVec Ideal ⟨2, ![R, N]⟩ .f32) (b g e : FVec Ideal ⟨1, ![N]⟩ .f32) (wN wε : BitVec 32)
    (h1 : (⟨1, ![N]⟩ : Shape).BroadcastsInDim ⟨2, ![1, N]⟩ ![1]) (h2 : (⟨2, ![1, N]⟩ : Shape).BroadcastsInDim ⟨2, ![R, N]⟩ ![0, 1])
    (h3 : (⟨1, ![R]⟩ : Shape).BroadcastsInDim ⟨2, ![R, 1]⟩ ![0]) (h4 : (⟨2, ![R, 1]⟩ : Shape).BroadcastsInDim ⟨2, ![R, N]⟩ ![0, 1])
    (h5 : (⟨0, ![]⟩ : Shape).BroadcastsInDim ⟨2, ![R, 1]⟩ ![])
    (hred' : (⟨2, ![R, N]⟩ : Shape).ReducesTo [1] ⟨1, ![R]⟩) (hu : 0 < (⟨0, ![]⟩ : Shape).numel)
    (hr : (⟨1, ![N]⟩ : Shape).ShapeCasts ⟨2, ![1, N]⟩)
    (hz : (⟨2, ![R, N]⟩ : Shape).ShapeCasts ⟨2, ![R, N]⟩) (hb : (⟨2, ![1, N]⟩ : Shape).ShapeCasts ⟨2, ![1, N]⟩)
    (hbc : (⟨2, ![1, N]⟩ : Shape).Broadcasts ⟨2, ![R, N]⟩)
    (hred : (⟨2, ![R, N]⟩ : Shape).Reduces [1] ⟨1, ![R]⟩) (hφ : FKind.Formats .f32)
    (hacc : (0x00000000#32 : BitVec 32) = 0x00000000#32) (hcol : (⟨1, ![R]⟩ : Shape).ShapeCasts ⟨2, ![R, 1]⟩)
    (hcb : (⟨2, ![R, 1]⟩ : Shape).Broadcasts ⟨2, ![R, N]⟩) :
    addf (mulf (mulf (subf (addf z (broadcastInDim ⟨2, ![R, N]⟩ ![0, 1] h2 (broadcastInDim ⟨2, ![1, N]⟩ ![1] h1 b))) (broadcastInDim ⟨2, ![R, N]⟩ ![0, 1] h4 (Host.divf (broadcastInDim ⟨2, ![R, 1]⟩ ![0] h3 (Host.reduceAdd (addf z (broadcastInDim ⟨2, ![R, N]⟩ ![0, 1] h2 (broadcastInDim ⟨2, ![1, N]⟩ ![1] h1 b))) (constant (F := Ideal) ⟨0, ![]⟩ .f32 0x00000000#32) hred' hu)) (broadcastInDim ⟨2, ![R, 1]⟩ ![] h5 (constant (F := Ideal) ⟨0, ![]⟩ .f32 wN))))) (broadcastInDim ⟨2, ![R, N]⟩ ![0, 1] h4 (Host.rsqrt (addf (Host.divf (broadcastInDim ⟨2, ![R, 1]⟩ ![0] h3 (Host.reduceAdd (mulf (subf (addf z (broadcastInDim ⟨2, ![R, N]⟩ ![0, 1] h2 (broadcastInDim ⟨2, ![1, N]⟩ ![1] h1 b))) (broadcastInDim ⟨2, ![R, N]⟩ ![0, 1] h4 (Host.divf (broadcastInDim ⟨2, ![R, 1]⟩ ![0] h3 (Host.reduceAdd (addf z (broadcastInDim ⟨2, ![R, N]⟩ ![0, 1] h2 (broadcastInDim ⟨2, ![1, N]⟩ ![1] h1 b))) (constant (F := Ideal) ⟨0, ![]⟩ .f32 0x00000000#32) hred' hu)) (broadcastInDim ⟨2, ![R, 1]⟩ ![] h5 (constant (F := Ideal) ⟨0, ![]⟩ .f32 wN))))) (subf (addf z (broadcastInDim ⟨2, ![R, N]⟩ ![0, 1] h2 (broadcastInDim ⟨2, ![1, N]⟩ ![1] h1 b))) (broadcastInDim ⟨2, ![R, N]⟩ ![0, 1] h4 (Host.divf (broadcastInDim ⟨2, ![R, 1]⟩ ![0] h3 (Host.reduceAdd (addf z (broadcastInDim ⟨2, ![R, N]⟩ ![0, 1] h2 (broadcastInDim ⟨2, ![1, N]⟩ ![1] h1 b))) (constant (F := Ideal) ⟨0, ![]⟩ .f32 0x00000000#32) hred' hu)) (broadcastInDim ⟨2, ![R, 1]⟩ ![] h5 (constant (F := Ideal) ⟨0, ![]⟩ .f32 wN)))))) (constant (F := Ideal) ⟨0, ![]⟩ .f32 0x00000000#32) hred' hu)) (broadcastInDim ⟨2, ![R, 1]⟩ ![] h5 (constant (F := Ideal) ⟨0, ![]⟩ .f32 wN))) (broadcastInDim ⟨2, ![R, 1]⟩ ![] h5 (constant (F := Ideal) ⟨0, ![]⟩ .f32 wε)))))) (broadcastInDim ⟨2, ![R, N]⟩ ![0, 1] h2 (broadcastInDim ⟨2, ![1, N]⟩ ![1] h1 g))) (broadcastInDim ⟨2, ![R, N]⟩ ![0, 1] h2 (broadcastInDim ⟨2, ![1, N]⟩ ![1] h1 e))
      = normArr (Ideal.ofBits .f32 wN) (Ideal.ofBits .f32 wε) z (shapeCast ⟨2, ![1, N]⟩ b hr) (shapeCast ⟨2, ![1, N]⟩ g hr) (shapeCast ⟨2, ![1, N]⟩ e hr) := by
  have k := knorm z (shapeCast ⟨2, ![1, N]⟩ b hr) (shapeCast ⟨2, ![1, N]⟩ g hr) (shapeCast ⟨2, ![1, N]⟩ e hr) wN wε hz hb hbc hred hφ hacc hcol hcb
  simp only [shapeCast_self] at k
  rw [← k, splat_spellings .f32 wN h5, splat_spellings .f32 wε h5]
  simp only [row_spellings _ h1 h2 hr hbc, col_spellings _ h4 hcb, sumCol_spellings _ hred' hu h3 hred hφ hacc hcol,
    hostDivf_eq, hostRsqrt_eq]

end Cert.Lib.RowNorm

end
-- ==== Proof.Blocks.lean ====
/-
  What each of the four grids leaves in its output array, as one whole-array function of the arrays it found.

  Every grid has 25 points; point `t` reads rows `2000·t … 2000·t + 1999` of its first operand and the whole of its other
  operands, and writes rows `2000·t … 2000·t + 1999` of its output.  The body's value at a block is the block of a
  function whose every output row depends on the same input row only (a matrix product; a bias row with a rectifier; a
  layer normalisation of each row), so what point `t` writes back is block `t` of that function of the whole arrays, and
  since the 25 blocks cover the 50000 rows the output array ends holding the function of the whole arrays.
  The contents `V` the grid finds are a parameter: the statements hold for any.
-/
import proofs.«159216_j30812095381601_1_alg».proof.Proof.Gen.KernelIdeal.Frame
import proofs.«159216_j30812095381601_1_alg».proof.Proof.LibProdRows
import proofs.«159216_j30812095381601_1_alg».proof.Proof.LibRowNorm
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)
open Cert.KernelIdeal.RegionValue (prodArr block_prod off2_zero)
open Cert.Lib.RowNorm (biasAct normArr biasAct_block normArr_block kbias knorm)

variable (V : (c : Dev nD) → (b : Ref sig .tc) → Buf (Elt Ideal) ((c : Thread nD τ).loc b))

/-- The divisor of a row's mean and the shift under the reciprocal root, as the words the programs print. -/
abbrev cN : EReal := Ideal.ofBits .f32 0x43000000#32
abbrev cε : EReal := Ideal.ofBits .f32 0x3727C5AC#32

/-! ## Grid 0: a matrix product -/

/-- The printed index maps, decided over the 25 points: the first operand and the output move with the point, the
    second operand stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's arithmetic: the product of its two loaded blocks into a zero accumulator. -/
theorem pay0 (x0 : Vec Ideal S2000x128 .bf16) (x1 : Vec Ideal S128x256 .bf16) :
    k0_pay1 (F := Ideal) x0 x1
      = matmul (φ₁ := .bf16) (φ₂ := .bf16) (DotDims.plain 2000 128 256) none x0 x1 (constant ⟨2, ![2000, 256]⟩ .f32 0x00000000#32) := by
  unfold k0_pay1
  rw [shapeCast_self, shapeCast_self]
  rfl

/-- What point `t` writes back is block `t` of the product of the whole arrays. -/
theorem flushed0 (c : Dev nD) (t : Fin cfg0.N) :
    (dat0 V c).flushed 2 t = ((cfg0.win 2).blk t).view.read (Elt Ideal) (prodArr (V c main_v33) (V c main_v34)) := by
  show (cfg0.win 2).cut (grid0.coords t) ((dat0 V c).after 2 t) = _
  rw [after0_2]
  unfold out0_2
  rw [View.canon_unit_zero off2_zero]
  simp only [View.ld_unit_zero (S := S2000x128) off2_zero, View.ld_unit_zero (S := S128x256) off2_zero]
  rw [pay0]
  obtain ⟨e0, e1, e2, e3, e4, e5⟩ := idx0 t
  funext y
  show _ = prodArr (V c main_v33) (V c main_v34) (((cfg0.win 2).blk t).view.emb y)
  refine block_prod (φ₁ := .bf16) (φ₂ := .bf16) none (iblk0 V c 0 t) (iblk0 V c 1 t) (V c main_v33) (V c main_v34) (t.val * 2000) y
    (((cfg0.win 2).blk t).view.emb y) ?_ ?_ ?_ ?_
  · show win0_2.index t (0 : Fin 2) * 2000 + 1 * (y 0).val = _
    rw [e4]; omega
  · show win0_2.index t (1 : Fin 2) * 256 + 1 * (y 1).val = _
    rw [e5]; omega
  · intro u z h0 h1
    show V c main_v33 (((cfg0.win 0).blk t).view.emb u) = V c main_v33 z
    refine congrArg (V c main_v33) (funext fun a => Fin.ext ?_)
    match a with
    | ⟨0, _⟩ => show win0_0.index t (0 : Fin 2) * 2000 + 1 * (u 0).val = (z 0).val; rw [e0, h0]; omega
    | ⟨1, _⟩ => show win0_0.index t (1 : Fin 2) * 128 + 1 * (u 1).val = (z 1).val; rw [e1, h1]; omega
  · intro u
    show V c main_v34 (((cfg0.win 1).blk t).view.emb u) = V c main_v34 u
    refine congrArg (V c main_v34) (funext fun a => Fin.ext ?_)
    match a with
    | ⟨0, _⟩ => show win0_1.index t (0 : Fin 2) * 128 + 1 * (u 0).val = (u 0).val; rw [e2]; omega
    | ⟨1, _⟩ => show win0_1.index t (1 : Fin 2) * 256 + 1 * (u 1).val = (u 1).val; rw [e3]; omega

/-- An index of the output array is in point `t`'s block iff each coordinate is in the block's range on its axis. -/
theorem mem_blk0 (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v35).slice (win0_2.rect t)).set ↔ _
  rw [View.set_slice_whole, Rect.mem_set_unit]
  exact Iff.rfl

/-- Row `r` of the output array is in the block of point `r / 2000`: the 25 blocks cover the array. -/
theorem cover0 (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  refine ⟨⟨(i 0).val / 2000, by show (i 0).val / 2000 < 25; omega⟩, flush0_2 _, ?_⟩
  rw [mem_blk0]
  have e := idx0 ⟨(i 0).val / 2000, by show (i 0).val / 2000 < 25; omega⟩
  intro a
  match a with
  | ⟨0, _⟩ =>
    show win0_2.index _ (0 : Fin 2) * 2000 ≤ (i 0).val ∧ (i 0).val < win0_2.index _ (0 : Fin 2) * 2000 + 2000
    rw [e.2.2.2.2.1]; show (i 0).val / 2000 * 2000 ≤ _ ∧ _ < (i 0).val / 2000 * 2000 + 2000; omega
  | ⟨1, _⟩ =>
    show win0_2.index _ (1 : Fin 2) * 256 ≤ (i 1).val ∧ (i 1).val < win0_2.index _ (1 : Fin 2) * 256 + 256
    rw [e.2.2.2.2.2]; omega

/-- The output array after the grid: the product of the two arrays it found. -/
theorem value0 (c : Dev nD) : (dat0 V c).arrAt 2 cfg0.N = prodArr (V c main_v33) (V c main_v34) :=
  (dat0 V c).arrAt_eq_of_cover 2 (prodArr (V c main_v33) (V c main_v34)) (fun t _ => flushed0 V c t) cover0

/-! ## Grid 1: a bias row and the rectifier -/

theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The body's arithmetic: its block plus the bias row, then the larger of that and zero. -/
theorem pay1 (x0 : Vec Ideal S2000x256 .f32) (x1 : Vec Ideal S1x256 .f32) : k1_pay1 (F := Ideal) x0 x1 = biasAct x0 x1 := by
  unfold k1_pay1
  exact kbias x0 x1 _ _ _

/-- What point `t` writes back is block `t` of the biased and rectified whole array. -/
theorem flushed1 (c : Dev nD) (t : Fin cfg1.N) :
    (dat1 V c).flushed 2 t = ((cfg1.win 2).blk t).view.read (Elt Ideal) (biasAct (V c main_v48) (V c main_v49)) := by
  show (cfg1.win 2).cut (grid1.coords t) ((dat1 V c).after 2 t) = _
  rw [after1_2]
  unfold out1_2
  rw [View.canon_unit_zero off2_zero]
  simp only [View.ld_unit_zero (S := S2000x256) off2_zero, View.ld_unit_zero (S := S1x256) off2_zero]
  rw [pay1]
  obtain ⟨e0, e1, e2, e3, e4, e5⟩ := idx1 t
  funext y
  show _ = biasAct (V c main_v48) (V c main_v49) (((cfg1.win 2).blk t).view.emb y)
  refine biasAct_block (iblk1 V c 0 t) (iblk1 V c 1 t) (V c main_v48) (V c main_v49) (t.val * 2000) y
    (((cfg1.win 2).blk t).view.emb y) ?_ ?_ ?_ ?_
  · show win1_2.index t (0 : Fin 2) * 2000 + 1 * (y 0).val = _
    rw [e4]; omega
  · show win1_2.index t (1 : Fin 2) * 256 + 1 * (y 1).val = _
    rw [e5]; omega
  · intro u z h0 h1
    show V c main_v48 (((cfg1.win 0).blk t).view.emb u) = V c main_v48 z
    refine congrArg (V c main_v48) (funext fun a => Fin.ext ?_)
    match a with
    | ⟨0, _⟩ => show win1_0.index t (0 : Fin 2) * 2000 + 1 * (u 0).val = (z 0).val; rw [e0, h0]; omega
    | ⟨1, _⟩ => show win1_0.index t (1 : Fin 2) * 256 + 1 * (u 1).val = (z 1).val; rw [e1, h1]; omega
  · intro u
    show V c main_v49 (((cfg1.win 1).blk t).view.emb u) = V c main_v49 u
    refine congrArg (V c main_v49) (funext fun a => Fin.ext ?_)
    match a with
    | ⟨0, _⟩ => show win1_1.index t (0 : Fin 2) * 1 + 1 * (u 0).val = (u 0).val; rw [e2]; omega
    | ⟨1, _⟩ => show win1_1.index t (1 : Fin 2) * 256 + 1 * (u 1).val = (u 1).val; rw [e3]; omega

/-- An index of the output array is in point `t`'s block iff each coordinate is in the block's range on its axis. -/
theorem mem_blk1 (t : Fin cfg1.N) (i : S50000x256.Idx) :
    i ∈ ((cfg1.win 2).blk t).view.set ↔ ∀ a : Fin 2, win1_2.index t a * S2000x256.size a ≤ (i a).val ∧ (i a).val < win1_2.index t a * S2000x256.size a + S2000x256.size a := by
  show i ∈ ((View.whole main_v50).slice (win1_2.rect t)).set ↔ _
  rw [View.set_slice_whole, Rect.mem_set_unit]
  exact Iff.rfl

/-- Row `r` of the output array is in the block of point `r / 2000`: the 25 blocks cover the array. -/
theorem cover1 (i : S50000x256.Idx) : ∃ t : Fin cfg1.N, (cfg1.win 2).flush t = true ∧ i ∈ ((cfg1.win 2).blk t).view.set := by
  have hi0 : (i 0).val < 50000 := (i 0).isLt
  have hi1 : (i 1).val < 256 := (i 1).isLt
  refine ⟨⟨(i 0).val / 2000, by show (i 0).val / 2000 < 25; omega⟩, flush1_2 _, ?_⟩
  rw [mem_blk1]
  have e := idx1 ⟨(i 0).val / 2000, by show (i 0).val / 2000 < 25; omega⟩
  intro a
  match a with
  | ⟨0, _⟩ =>
    show win1_2.index _ (0 : Fin 2) * 2000 ≤ (i 0).val ∧ (i 0).val < win1_2.index _ (0 : Fin 2) * 2000 + 2000
    rw [e.2.2.2.2.1]; show (i 0).val / 2000 * 2000 ≤ _ ∧ _ < (i 0).val / 2000 * 2000 + 2000; omega
  | ⟨1, _⟩ =>
    show win1_2.index _ (1 : Fin 2) * 256 ≤ (i 1).val ∧ (i 1).val < win1_2.index _ (1 : Fin 2) * 256 + 256
    rw [e.2.2.2.2.2]; omega

/-- The output array after the grid: the bias row added to every row of the array it found, rectified. -/
theorem value1 (c : Dev nD) : (dat1 V c).arrAt 2 cfg1.N = biasAct (V c main_v48) (V c main_v49) :=
  (dat1 V c).arrAt_eq_of_cover 2 (biasAct (V c main_v48) (V c main_v49)) (fun t _ => flushed1 V c t) cover1

/-! ## Grid 2: a matrix product -/

/-- The printed index maps, decided over the 25 points: the first operand and the output move with the point, the
    second operand stays. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The body's arithmetic: the product of its two loaded blocks into a zero accumulator. -/
theorem pay2 (x0 : Vec Ideal S2000x256 .bf16) (x1 : Vec Ideal S256x128 .bf16) :
    k2_pay1 (F := Ideal) x0 x1
      = matmul (φ₁ := .bf16) (φ₂ := .bf16) (DotDims.plain 2000 256 128) none x0 x1 (constant ⟨2, ![2000, 128]⟩ .f32 0x00000000#32) := by
  unfold k2_pay1
  rw [shapeCast_self, shapeCast_self]
  rfl

/-- What point `t` writes back is block `t` of the product of the whole arrays. -/
theorem flushed2 (c : Dev nD) (t : Fin cfg2.N) :
    (dat2 V c).flushed 2 t = ((cfg2.win 2).blk t).view.read (Elt Ideal) (prodArr (V c main_v52) (V c main_v53)) := by
  show (cfg2.win 2).cut (grid2.coords t) ((dat2 V c).after 2 t) = _
  rw [after2_2]
  unfold out2_2
  rw [View.canon_unit_zero off2_zero]
  simp only [View.ld_unit_zero (S := S2000x256) off2_zero, View.ld_unit_zero (S := S256x128) off2_zero]
  rw [pay2]
  obtain ⟨e0, e1, e2, e3, e4, e5⟩ := idx2 t
  funext y
  show _ = prodArr (V c main_v52) (V c main_v53) (((cfg2.win 2).blk t).view.emb y)
  refine block_prod (φ₁ := .bf16) (φ₂ := .bf16) none (iblk2 V c 0 t) (iblk2 V c 1 t) (V c main_v52) (V c main_v53) (t.val * 2000) y
    (((cfg2.win 2).blk t).view.emb y) ?_ ?_ ?_ ?_
  · show win2_2.index t (0 : Fin 2) * 2000 + 1 * (y 0).val = _
    rw [e4]; omega
  · show win2_2.index t (1 : Fin 2) * 128 + 1 * (y 1).val = _
    rw [e5]; omega
  · intro u z h0 h1
    show V c main_v52 (((cfg2.win 0).blk t).view.emb u) = V c main_v52 z
    refine congrArg (V c main_v52) (funext fun a => Fin.ext ?_)
    match a with
    | ⟨0, _⟩ => show win2_0.index t (0 : Fin 2) * 2000 + 1 * (u 0).val = (z 0).val; rw [e0, h0]; omega
    | ⟨1, _⟩ => show win2_0.index t (1 : Fin 2) * 256 + 1 * (u 1).val = (z 1).val; rw [e1, h1]; omega
  · intro u
    show V c main_v53 (((cfg2.win 1).blk t).view.emb u) = V c main_v53 u
    refine congrArg (V c main_v53) (funext fun a => Fin.ext ?_)
    match a with
    | ⟨0, _⟩ => show win2_1.index t (0 : Fin 2) * 256 + 1 * (u 0).val = (u 0).val; rw [e2]; omega
    | ⟨1, _⟩ => show win2_1.index t (1 : Fin 2) * 128 + 1 * (u 1).val = (u 1).val; rw [e3]; omega

/-- An index of the output array is in point `t`'s block iff each coordinate is in the block's range on its axis. -/
theorem mem_blk2 (t : Fin cfg2.N) (i : S50000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v54).slice (win2_2.rect t)).set ↔ _
  rw [View.set_slice_whole, Rect.mem_set_unit]
  exact Iff.rfl

/-- Row `r` of the output array is in the block of point `r / 2000`: the 25 blocks cover the array. -/
theorem cover2 (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  refine ⟨⟨(i 0).val / 2000, by show (i 0).val / 2000 < 25; omega⟩, flush2_2 _, ?_⟩
  rw [mem_blk2]
  have e := idx2 ⟨(i 0).val / 2000, by show (i 0).val / 2000 < 25; omega⟩
  intro a
  match a with
  | ⟨0, _⟩ =>
    show win2_2.index _ (0 : Fin 2) * 2000 ≤ (i 0).val ∧ (i 0).val < win2_2.index _ (0 : Fin 2) * 2000 + 2000
    rw [e.2.2.2.2.1]; show (i 0).val / 2000 * 2000 ≤ _ ∧ _ < (i 0).val / 2000 * 2000 + 2000; omega
  | ⟨1, _⟩ =>
    show win2_2.index _ (1 : Fin 2) * 128 ≤ (i 1).val ∧ (i 1).val < win2_2.index _ (1 : Fin 2) * 128 + 128
    rw [e.2.2.2.2.2]; omega

/-- The output array after the grid: the product of the two arrays it found. -/
theorem value2 (c : Dev nD) : (dat2 V c).arrAt 2 cfg2.N = prodArr (V c main_v52) (V c main_v53) :=
  (dat2 V c).arrAt_eq_of_cover 2 (prodArr (V c main_v52) (V c main_v53)) (fun t _ => flushed2 V c t) cover2

/-! ## Grid 3: a bias row and the layer normalisation of each row -/

theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The body's arithmetic: the normalisation of each biased row of its block, scaled and shifted. -/
theorem pay3 (x0 : Vec Ideal S2000x128 .f32) (x1 x2 x3 : Vec Ideal S1x128 .f32) :
    k3_pay1 (F := Ideal) x0 x1 x2 x3 = normArr cN cε x0 x1 x2 x3 := by
  unfold k3_pay1
  exact knorm x0 x1 x2 x3 0x43000000#32 0x3727C5AC#32 _ _ _ _ _ _ _ _

/-- What point `t` writes back is block `t` of the normalised whole array. -/
theorem flushed3 (c : Dev nD) (t : Fin cfg3.N) :
    (dat3 V c).flushed 4 t = ((cfg3.win 4).blk t).view.read (Elt Ideal)
      (normArr cN cε (V c main_v67) (V c main_v68) (V c main_v69) (V c main_v70)) := by
  show (cfg3.win 4).cut (grid3.coords t) ((dat3 V c).after 4 t) = _
  rw [after3_4]
  unfold out3_4
  rw [View.canon_unit_zero off2_zero]
  simp only [View.ld_unit_zero (S := S2000x128) off2_zero, View.ld_unit_zero (S := S1x128) off2_zero]
  rw [pay3]
  obtain ⟨e0, e1, e2, e3, e4, e5, e6, e7, e8, e9⟩ := idx3 t
  funext y
  show _ = normArr cN cε (V c main_v67) (V c main_v68) (V c main_v69) (V c main_v70) (((cfg3.win 4).blk t).view.emb y)
  refine normArr_block cN cε (iblk3 V c 0 t) (iblk3 V c 1 t) (iblk3 V c 2 t) (iblk3 V c 3 t)
    (V c main_v67) (V c main_v68) (V c main_v69) (V c main_v70) (t.val * 2000) y
    (((cfg3.win 4).blk t).view.emb y) ?_ ?_ ?_ ?_ ?_ ?_
  · show win3_4.index t (0 : Fin 2) * 2000 + 1 * (y 0).val = _
    rw [e8]; omega
  · show win3_4.index t (1 : Fin 2) * 128 + 1 * (y 1).val = _
    rw [e9]; omega
  · intro u z h0 h1
    show V c main_v67 (((cfg3.win 0).blk t).view.emb u) = V c main_v67 z
    refine congrArg (V c main_v67) (funext fun a => Fin.ext ?_)
    match a with
    | ⟨0, _⟩ => show win3_0.index t (0 : Fin 2) * 2000 + 1 * (u 0).val = (z 0).val; rw [e0, h0]; omega
    | ⟨1, _⟩ => show win3_0.index t (1 : Fin 2) * 128 + 1 * (u 1).val = (z 1).val; rw [e1, h1]; omega
  · intro u
    show V c main_v68 (((cfg3.win 1).blk t).view.emb u) = V c main_v68 u
    refine congrArg (V c main_v68) (funext fun a => Fin.ext ?_)
    match a with
    | ⟨0, _⟩ => show win3_1.index t (0 : Fin 2) * 1 + 1 * (u 0).val = (u 0).val; rw [e2]; omega
    | ⟨1, _⟩ => show win3_1.index t (1 : Fin 2) * 128 + 1 * (u 1).val = (u 1).val; rw [e3]; omega
  · intro u
    show V c main_v69 (((cfg3.win 2).blk t).view.emb u) = V c main_v69 u
    refine congrArg (V c main_v69) (funext fun a => Fin.ext ?_)
    match a with
    | ⟨0, _⟩ => show win3_2.index t (0 : Fin 2) * 1 + 1 * (u 0).val = (u 0).val; rw [e4]; omega
    | ⟨1, _⟩ => show win3_2.index t (1 : Fin 2) * 128 + 1 * (u 1).val = (u 1).val; rw [e5]; omega
  · intro u
    show V c main_v70 (((cfg3.win 3).blk t).view.emb u) = V c main_v70 u
    refine congrArg (V c main_v70) (funext fun a => Fin.ext ?_)
    match a with
    | ⟨0, _⟩ => show win3_3.index t (0 : Fin 2) * 1 + 1 * (u 0).val = (u 0).val; rw [e6]; omega
    | ⟨1, _⟩ => show win3_3.index t (1 : Fin 2) * 128 + 1 * (u 1).val = (u 1).val; rw [e7]; omega

/-- An index of the output array is in point `t`'s block iff each coordinate is in the block's range on its axis. -/
theorem mem_blk3 (t : Fin cfg3.N) (i : S50000x128.Idx) :
    i ∈ ((cfg3.win 4).blk t).view.set ↔ ∀ a : Fin 2, win3_4.index t a * S2000x128.size a ≤ (i a).val ∧ (i a).val < win3_4.index t a * S2000x128.size a + S2000x128.size a := by
  show i ∈ ((View.whole main_v71).slice (win3_4.rect t)).set ↔ _
  rw [View.set_slice_whole, Rect.mem_set_unit]
  exact Iff.rfl

/-- Row `r` of the output array is in the block of point `r / 2000`: the 25 blocks cover the array. -/
theorem cover3 (i : S50000x128.Idx) : ∃ t : Fin cfg3.N, (cfg3.win 4).flush t = true ∧ i ∈ ((cfg3.win 4).blk t).view.set := by
  have hi0 : (i 0).val < 50000 := (i 0).isLt
  have hi1 : (i 1).val < 128 := (i 1).isLt
  refine ⟨⟨(i 0).val / 2000, by show (i 0).val / 2000 < 25; omega⟩, flush3_4 _, ?_⟩
  rw [mem_blk3]
  have e := idx3 ⟨(i 0).val / 2000, by show (i 0).val / 2000 < 25; omega⟩
  intro a
  match a with
  | ⟨0, _⟩ =>
    show win3_4.index _ (0 : Fin 2) * 2000 ≤ (i 0).val ∧ (i 0).val < win3_4.index _ (0 : Fin 2) * 2000 + 2000
    rw [e.2.2.2.2.2.2.2.2.1]; show (i 0).val / 2000 * 2000 ≤ _ ∧ _ < (i 0).val / 2000 * 2000 + 2000; omega
  | ⟨1, _⟩ =>
    show win3_4.index _ (1 : Fin 2) * 128 ≤ (i 1).val ∧ (i 1).val < win3_4.index _ (1 : Fin 2) * 128 + 128
    rw [e.2.2.2.2.2.2.2.2.2]; omega

/-- The output array after the grid: the normalisation of every biased row of the array it found. -/
theorem value3 (c : Dev nD) : (dat3 V c).arrAt 4 cfg3.N = normArr cN cε (V c main_v67) (V c main_v68) (V c main_v69) (V c main_v70) :=
  (dat3 V c).arrAt_eq_of_cover 4 (normArr cN cε (V c main_v67) (V c main_v68) (V c main_v69) (V c main_v70))
    (fun t _ => flushed3 V c t) cover3

end Cert.KernelIdeal.Blocks

end
-- ==== Proof.Layer1.lean ====
/-
  The first layer, from the first grid's entry to the second grid's exit: the product `x · W1ᵀ`, the first
  gather-scale-scatter hop, and the bias with the rectifier.  At each boundary every buffer a later stage reads holds the
  value the reference's corresponding operation writes.
-/
import proofs.«159216_j30812095381601_1_alg».proof.Proof.Prefix
import proofs.«159216_j30812095381601_1_alg».proof.Proof.Blocks

set_option maxRecDepth 16384

noncomputable section

namespace Cert.KernelIdeal.Walk

open Cert.KernelIdeal Cert.KernelIdeal.Gen Idealize.ShloMosaic Idealize.ShloMosaic.TcCoe Idealize.SL.Sem
open Idealize.ShloMosaic.StableHlo
open Cert.ReferenceIdeal.Read
open Cert.KernelIdeal.Blocks (value0 value1 value2 value3 cN cε)
open Cert.KernelIdeal.RegionValue (prodArr)
open Cert.Lib.RowNorm (biasAct normArr hbias hnorm)

variable (m : (ℓ : Loc nD τ sig) → Buf (Elt Ideal) ℓ) (ρ : Dev nD → PrngReg) (c : Dev nD)

/-! ## After the first grid: the first product -/

theorem w4_v3 : W4 m ρ c (Proc.devRef .tc main_v3) = val_main_v3 (F := Ideal) (x m c main_arg1) :=
  (W4_of_ne m ρ c main_v3 (by decide)).trans (w3_v3 m ρ c)

theorem w4_v6 : W4 m ρ c (Proc.devRef .tc main_v6) = val_main_v6 (F := Ideal) (x m c main_arg1) :=
  (W4_of_ne m ρ c main_v6 (by decide)).trans (w3_v6 m ρ c)

theorem w4_v31 : W4 m ρ c (Proc.devRef .tc main_v31) = val_main_v31 (F := Ideal) (x m c main_arg1) (x m c main_arg2) :=
  (W4_of_ne m ρ c main_v31 (by decide)).trans (w3_v31 m ρ c)

theorem w4_arg4 : W4 m ρ c (Proc.devRef .tc main_arg4) = (x m c main_arg4) :=
  (W4_of_ne m ρ c main_arg4 (by decide)).trans (w3_arg4 m ρ c)

theorem w4_arg5 : W4 m ρ c (Proc.devRef .tc main_arg5) = (x m c main_arg5) :=
  (W4_of_ne m ρ c main_arg5 (by decide)).trans (w3_arg5 m ρ c)

theorem w4_arg6 : W4 m ρ c (Proc.devRef .tc main_arg6) = (x m c main_arg6) :=
  (W4_of_ne m ρ c main_arg6 (by decide)).trans (w3_arg6 m ρ c)

theorem w4_arg7 : W4 m ρ c (Proc.devRef .tc main_arg7) = (x m c main_arg7) :=
  (W4_of_ne m ρ c main_arg7 (by decide)).trans (w3_arg7 m ρ c)

theorem w4_arg8 : W4 m ρ c (Proc.devRef .tc main_arg8) = (x m c main_arg8) :=
  (W4_of_ne m ρ c main_arg8 (by decide)).trans (w3_arg8 m ρ c)

theorem w4_v35 : W4 m ρ c (Proc.devRef .tc main_v35) = val_main_v33 (F := Ideal) (x m c main_arg0) (x m c main_arg3) := by
  refine (W4_arr m ρ c 2).trans ((value0 (V3 m ρ) c).trans ?_)
  show prodArr (W3 m ρ c (Proc.devRef .tc main_v33)) (W3 m ρ c (Proc.devRef .tc main_v34)) = _
  rw [w3_v33, w3_v34, truncf_id, truncf_id]
  unfold val_main_v33 val_main_v32
  exact (Cert.ProdRows.hprod (R := 50000) (K := 128) (N := 256) none _ _).symm

/-! ## Before the second grid: the first hop -/

theorem w5_v3 : W5 m ρ c (Proc.devRef .tc main_v3) = val_main_v3 (F := Ideal) (x m c main_arg1) := by
  show after hostOps1 (W4 m ρ c) _ = _
  after_results_simp
  exact w4_v3 m ρ c

theorem w5_v6 : W5 m ρ c (Proc.devRef .tc main_v6) = val_main_v6 (F := Ideal) (x m c main_arg1) := by
  show after hostOps1 (W4 m ρ c) _ = _
  after_results_simp
  exact w4_v6 m ρ c

theorem w5_v31 : W5 m ρ c (Proc.devRef .tc main_v31) = val_main_v31 (F := Ideal) (x m c main_arg1) (x m c main_arg2) := by
  show after hostOps1 (W4 m ρ c) _ = _
  after_results_simp
  exact w4_v31 m ρ c

theorem w5_arg5 : W5 m ρ c (Proc.devRef .tc main_arg5) = (x m c main_arg5) := by
  show after hostOps1 (W4 m ρ c) _ = _
  after_results_simp
  exact w4_arg5 m ρ c

theorem w5_arg6 : W5 m ρ c (Proc.devRef .tc main_arg6) = (x m c main_arg6) := by
  show after hostOps1 (W4 m ρ c) _ = _
  after_results_simp
  exact w4_arg6 m ρ c

theorem w5_arg7 : W5 m ρ c (Proc.devRef .tc main_arg7) = (x m c main_arg7) := by
  show after hostOps1 (W4 m ρ c) _ = _
  after_results_simp
  exact w4_arg7 m ρ c

theorem w5_arg8 : W5 m ρ c (Proc.devRef .tc main_arg8) = (x m c main_arg8) := by
  show after hostOps1 (W4 m ρ c) _ = _
  after_results_simp
  exact w4_arg8 m ρ c

theorem w5_v48 : W5 m ρ c (Proc.devRef .tc main_v48) = val_main_v46 (F := Ideal) (x m c main_arg0) (x m c main_arg1) (x m c main_arg2) (x m c main_arg3) := by
  show after hostOps1 (W4 m ρ c) _ = _
  after_results_simp
  after_rw
  rw [w4_v35, w4_v3, w4_v6, w4_v31]
  rfl

theorem w5_v49 : W5 m ρ c (Proc.devRef .tc main_v49) = shapeCast S1x256 (x m c main_arg4) shapeCasts_S256_S1x256 := by
  show after hostOps1 (W4 m ρ c) _ = _
  after_results_simp
  after_rw
  rw [w4_arg4]
  rfl

/-! ## After the second grid: the bias and the rectifier -/

theorem w6_v3 : W6 m ρ c (Proc.devRef .tc main_v3) = val_main_v3 (F := Ideal) (x m c main_arg1) :=
  (W6_of_ne m ρ c main_v3 (by decide)).trans (w5_v3 m ρ c)

theorem w6_v6 : W6 m ρ c (Proc.devRef .tc main_v6) = val_main_v6 (F := Ideal) (x m c main_arg1) :=
  (W6_of_ne m ρ c main_v6 (by decide)).trans (w5_v6 m ρ c)

theorem w6_v31 : W6 m ρ c (Proc.devRef .tc main_v31) = val_main_v31 (F := Ideal) (x m c main_arg1) (x m c main_arg2) :=
  (W6_of_ne m ρ c main_v31 (by decide)).trans (w5_v31 m ρ c)

theorem w6_arg5 : W6 m ρ c (Proc.devRef .tc main_arg5) = (x m c main_arg5) :=
  (W6_of_ne m ρ c main_arg5 (by decide)).trans (w5_arg5 m ρ c)

theorem w6_arg6 : W6 m ρ c (Proc.devRef .tc main_arg6) = (x m c main_arg6) :=
  (W6_of_ne m ρ c main_arg6 (by decide)).trans (w5_arg6 m ρ c)

theorem w6_arg7 : W6 m ρ c (Proc.devRef .tc main_arg7) = (x m c main_arg7) :=
  (W6_of_ne m ρ c main_arg7 (by decide)).trans (w5_arg7 m ρ c)

theorem w6_arg8 : W6 m ρ c (Proc.devRef .tc main_arg8) = (x m c main_arg8) :=
  (W6_of_ne m ρ c main_arg8 (by decide)).trans (w5_arg8 m ρ c)

theorem w6_v50 : W6 m ρ c (Proc.devRef .tc main_v50) = val_main_v50 (F := Ideal) (x m c main_arg0) (x m c main_arg1) (x m c main_arg2) (x m c main_arg3) (x m c main_arg4) := by
  refine (W6_arr m ρ c 2).trans ((value1 (V5 m ρ) c).trans ?_)
  show biasAct (W5 m ρ c (Proc.devRef .tc main_v48)) (W5 m ρ c (Proc.devRef .tc main_v49)) = _
  rw [w5_v48, w5_v49]
  unfold val_main_v50 val_main_v49 val_main_v48 val_main_v47 val_main_call1_v0 val_main_call1_cst
  exact (hbias (R := 50000) (N := 256) _ (x m c main_arg4) _ _ _ (by decide) (by decide) (by decide) (by decide)).symm

end Cert.KernelIdeal.Walk

end
-- ==== Proof.Layer2.lean ====
/-
  The second layer, from the third grid's entry to the return: the product with `W2ᵀ`, the second gather-scale-scatter
  hop, and the bias with the layer normalisation.  The last boundary's result buffer holds the reference's result.
-/
import proofs.«159216_j30812095381601_1_alg».proof.Proof.Layer1

set_option maxRecDepth 16384

noncomputable section

namespace Cert.KernelIdeal.Walk

open Cert.KernelIdeal Cert.KernelIdeal.Gen Idealize.ShloMosaic Idealize.ShloMosaic.TcCoe Idealize.SL.Sem
open Idealize.ShloMosaic.StableHlo
open Cert.ReferenceIdeal.Read
open Cert.KernelIdeal.Blocks (value0 value1 value2 value3 cN cε)
open Cert.KernelIdeal.RegionValue (prodArr)
open Cert.Lib.RowNorm (biasAct normArr hbias hnorm)

variable (m : (ℓ : Loc nD τ sig) → Buf (Elt Ideal) ℓ) (ρ : Dev nD → PrngReg) (c : Dev nD)

/-! ## Before the third grid -/

theorem w7_v3 : W7 m ρ c (Proc.devRef .tc main_v3) = val_main_v3 (F := Ideal) (x m c main_arg1) := by
  show after hostOps2 (W6 m ρ c) _ = _
  after_results_simp
  exact w6_v3 m ρ c

theorem w7_v6 : W7 m ρ c (Proc.devRef .tc main_v6) = val_main_v6 (F := Ideal) (x m c main_arg1) := by
  show after hostOps2 (W6 m ρ c) _ = _
  after_results_simp
  exact w6_v6 m ρ c

theorem w7_v31 : W7 m ρ c (Proc.devRef .tc main_v31) = val_main_v31 (F := Ideal) (x m c main_arg1) (x m c main_arg2) := by
  show after hostOps2 (W6 m ρ c) _ = _
  after_results_simp
  exact w6_v31 m ρ c

theorem w7_arg6 : W7 m ρ c (Proc.devRef .tc main_arg6) = (x m c main_arg6) := by
  show after hostOps2 (W6 m ρ c) _ = _
  after_results_simp
  exact w6_arg6 m ρ c

theorem w7_arg7 : W7 m ρ c (Proc.devRef .tc main_arg7) = (x m c main_arg7) := by
  show after hostOps2 (W6 m ρ c) _ = _
  after_results_simp
  exact w6_arg7 m ρ c

theorem w7_arg8 : W7 m ρ c (Proc.devRef .tc main_arg8) = (x m c main_arg8) := by
  show after hostOps2 (W6 m ρ c) _ = _
  after_results_simp
  exact w6_arg8 m ρ c

theorem w7_v52 : W7 m ρ c (Proc.devRef .tc main_v52) = val_main_v50 (F := Ideal) (x m c main_arg0) (x m c main_arg1) (x m c main_arg2) (x m c main_arg3) (x m c main_arg4) := by
  show after hostOps2 (W6 m ρ c) _ = _
  after_results_simp
  rw [w6_v50]
  exact truncf_id (s := S50000x256) (φ := .f32) .bf16 _ bitsLt_bf16_f32

theorem w7_v53 : W7 m ρ c (Proc.devRef .tc main_v53) = val_main_v51 (F := Ideal) (x m c main_arg5) := by
  show after hostOps2 (W6 m ρ c) _ = _
  after_results_simp
  rw [w6_arg5]
  exact (truncf_id (s := S256x128) (φ := .f32) .bf16 _ bitsLt_bf16_f32).trans rfl

/-! ## After the third grid: the second product -/

theorem w8_v3 : W8 m ρ c (Proc.devRef .tc main_v3) = val_main_v3 (F := Ideal) (x m c main_arg1) :=
  (W8_of_ne m ρ c main_v3 (by decide)).trans (w7_v3 m ρ c)

theorem w8_v6 : W8 m ρ c (Proc.devRef .tc main_v6) = val_main_v6 (F := Ideal) (x m c main_arg1) :=
  (W8_of_ne m ρ c main_v6 (by decide)).trans (w7_v6 m ρ c)

theorem w8_v31 : W8 m ρ c (Proc.devRef .tc main_v31) = val_main_v31 (F := Ideal) (x m c main_arg1) (x m c main_arg2) :=
  (W8_of_ne m ρ c main_v31 (by decide)).trans (w7_v31 m ρ c)

theorem w8_arg6 : W8 m ρ c (Proc.devRef .tc main_arg6) = (x m c main_arg6) :=
  (W8_of_ne m ρ c main_arg6 (by decide)).trans (w7_arg6 m ρ c)

theorem w8_arg7 : W8 m ρ c (Proc.devRef .tc main_arg7) = (x m c main_arg7) :=
  (W8_of_ne m ρ c main_arg7 (by decide)).trans (w7_arg7 m ρ c)

theorem w8_arg8 : W8 m ρ c (Proc.devRef .tc main_arg8) = (x m c main_arg8) :=
  (W8_of_ne m ρ c main_arg8 (by decide)).trans (w7_arg8 m ρ c)

theorem w8_v54 : W8 m ρ c (Proc.devRef .tc main_v54) = val_main_v52 (F := Ideal) (x m c main_arg0) (x m c main_arg1) (x m c main_arg2) (x m c main_arg3) (x m c main_arg4) (x m c main_arg5) := by
  refine (W8_arr m ρ c 2).trans ((value2 (V7 m ρ) c).trans ?_)
  show prodArr (W7 m ρ c (Proc.devRef .tc main_v52)) (W7 m ρ c (Proc.devRef .tc main_v53)) = _
  rw [w7_v52, w7_v53]
  unfold val_main_v52
  exact (Cert.ProdRows.hprod (R := 50000) (K := 256) (N := 128) none _ _).symm

/-! ## Before the last grid: the second hop -/

theorem w9_v67 : W9 m ρ c (Proc.devRef .tc main_v67) = val_main_v65 (F := Ideal) (x m c main_arg0) (x m c main_arg1) (x m c main_arg2) (x m c main_arg3) (x m c main_arg4) (x m c main_arg5) := by
  show after hostOps3 (W8 m ρ c) _ = _
  after_results_simp
  after_rw
  rw [w8_v54, w8_v3, w8_v6, w8_v31]
  rfl

theorem w9_v68 : W9 m ρ c (Proc.devRef .tc main_v68) = shapeCast S1x128 (x m c main_arg6) shapeCasts_S128_S1x128 := by
  show after hostOps3 (W8 m ρ c) _ = _
  after_results_simp
  after_rw
  rw [w8_arg6]
  rfl

theorem w9_v69 : W9 m ρ c (Proc.devRef .tc main_v69) = shapeCast S1x128 (x m c main_arg7) shapeCasts_S128_S1x128 := by
  show after hostOps3 (W8 m ρ c) _ = _
  after_results_simp
  after_rw
  rw [w8_arg7]
  rfl

theorem w9_v70 : W9 m ρ c (Proc.devRef .tc main_v70) = shapeCast S1x128 (x m c main_arg8) shapeCasts_S128_S1x128 := by
  show after hostOps3 (W8 m ρ c) _ = _
  after_results_simp
  after_rw
  rw [w8_arg8]
  rfl

/-! ## After the last grid: the bias and the layer normalisation -/

/-- The kernel's result array is the reference's result, as a function of the nine arguments. -/
theorem result : W10 m ρ c (Proc.devRef .tc main_v71)
    = val_main_v92 (F := Ideal) (x m c main_arg0) (x m c main_arg1) (x m c main_arg2) (x m c main_arg3) (x m c main_arg4) (x m c main_arg5) (x m c main_arg6) (x m c main_arg7) (x m c main_arg8) := by
  refine (W10_arr m ρ c 4).trans ((value3 (V9 m ρ) c).trans ?_)
  show normArr cN cε (W9 m ρ c (Proc.devRef .tc main_v67)) (W9 m ρ c (Proc.devRef .tc main_v68)) (W9 m ρ c (Proc.devRef .tc main_v69)) (W9 m ρ c (Proc.devRef .tc main_v70)) = _
  rw [w9_v67, w9_v68, w9_v69, w9_v70]
  unfold val_main_v92 val_main_v91 val_main_v90 val_main_v89 val_main_v88 val_main_v87 val_main_v86 val_main_v85 val_main_v84
    val_main_v83 val_main_v82 val_main_cst_16 val_main_v81 val_main_v80 val_main_v79 val_main_v78 val_main_cst_15 val_main_v77
    val_main_v76 val_main_cst_14 val_main_v75 val_main_v74 val_main_v73 val_main_v72 val_main_v71 val_main_cst_13 val_main_v70
    val_main_v69 val_main_cst_12 val_main_v68 val_main_v67 val_main_v66
  exact (hnorm (R := 50000) (N := 128) _ (x m c main_arg6) (x m c main_arg7) (x m c main_arg8) 0x43000000#32 0x3727C5AC#32 _ _ _ _ _ _ _
    (by decide) (by decide) (by decide) (by decide) (by decide) (by decide) rfl (by decide) (by decide)).symm

end Cert.KernelIdeal.Walk

end
-- ==== Proof.lean ====
/-
  The certificate of a two-layer graph convolution network with a layer normalisation: the idealized kernel and the
  idealized reference end with equal results as extended reals.

  Both programs build, by the same host operations, the edge list with a self loop per node, each node's weighted degree
  `deg`, the edge weights `rsqrt(deg[src]) · w · rsqrt(deg[dst])` (zero where the degree is not positive), and two
  gather-scale-scatter hops.  Between the hops the reference computes `relu(hop(x · W1ᵀ) + b1)` and
  `layernorm(hop(· W2ᵀ) + b2) · γ + β` on whole arrays; the kernel computes each product, the bias with the rectifier, and
  the bias with the normalisation on a grid of 25 blocks of 2000 rows.  Each of these stages acts on every row by itself,
  so a stage computed block by block is the stage of the whole array, and the operations inside a row are the same in the
  same order on both sides (the kernel's narrowing to bf16 is the identity on the extended reals): no law of the extended
  reals is used and the finiteness of the inputs is not needed.
  The modules: `KernelRun` (the kernel's run with the result buffer named), `Blocks` (each grid's output array as one
  function of the arrays it found), `Prefix`, `Layer1`, `Layer2` (the buffers' contents from the launch to the return, each equal to the
  value the reference's corresponding operation writes), over the general lemma files `LibDenseRow` … `LibProdRows` (matrix
  products row by row), `LibRowOps` and `LibRowNorm` (row reductions, bias with rectifier, layer normalisation, in the
  vector unit's and the host's spelling).
-/
import proofs.«159216_j30812095381601_1_alg».proof.Defs
import proofs.«159216_j30812095381601_1_alg».proof.Proof.Gen.Kernel
import proofs.«159216_j30812095381601_1_alg».proof.Proof.Gen.Kernel.Skeleton
import proofs.«159216_j30812095381601_1_alg».proof.Proof.Gen.Kernel.Launch
import proofs.«159216_j30812095381601_1_alg».proof.Proof.Gen.Kernel.Points
import proofs.«159216_j30812095381601_1_alg».proof.Proof.Gen.Kernel.Frame
import proofs.«159216_j30812095381601_1_alg».proof.Proof.Gen.KernelIdeal
import proofs.«159216_j30812095381601_1_alg».proof.Proof.Gen.KernelIdeal.Skeleton
import proofs.«159216_j30812095381601_1_alg».proof.Proof.Gen.KernelIdeal.Launch
import proofs.«159216_j30812095381601_1_alg».proof.Proof.Gen.KernelIdeal.Points
import proofs.«159216_j30812095381601_1_alg».proof.Proof.Gen.KernelIdeal.Frame
import proofs.«159216_j30812095381601_1_alg».proof.Proof.Gen.ReferenceIdeal
import proofs.«159216_j30812095381601_1_alg».proof.Proof.Gen.ReferenceIdeal.Run
import proofs.«159216_j30812095381601_1_alg».proof.Proof.Gen.ReferenceIdeal.Read
import proofs.«159216_j30812095381601_1_alg».proof.Proof.Gen.Pre_finite_inputs
import proofs.«159216_j30812095381601_1_alg».proof.Proof.KernelRun
import proofs.«159216_j30812095381601_1_alg».proof.Proof.Layer2
import Idealize.ShloMosaic.Adequacy
import Idealize.ShloMosaic.Init

noncomputable section

namespace Cert.Proof

open Idealize.ShloMosaic Idealize.ShloMosaic.TcCoe Idealize.SL.Sem

/-- The three programs run to the end without a fault and leave their arguments as launched. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the nine arguments both idealized programs end with the same result array: the
    reference's last operation's value as a function of the arguments. -/
theorem algebraic : Cert.algebraic_KernelIdeal_ReferenceIdeal := by
  intro m ρ m' ρ' _ hagree
  refine ⟨fun c => Cert.ReferenceIdeal.Read.val_main_v92 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Walk.result m ρ c), (h c).2⟩)
      (Cert.KernelIdeal.Result.result_run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8⟩ := hagree c
    rw [Cert.ReferenceIdeal.Read.val_main_v92_eq, h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
